-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512x32x32 : Shape := ⟨4, ![32, 512, 32, 32]⟩
abbrev S32x512x1x1 : Shape := ⟨4, ![32, 512, 1, 1]⟩
abbrev S512x32x1x1 : Shape := ⟨4, ![512, 32, 1, 1]⟩
abbrev S_ : Shape := ⟨0, ![]⟩

class Facts : Prop where
  bcast_S_S32x512x32x32 : S_.BroadcastsInDim S32x512x32x32 (![] : Fin 0 → Fin S32x512x32x32.rank)
  reducesTo_S32x512x32x32_S_d0_1_2_3 : S32x512x32x32.ReducesTo [0, 1, 2, 3] S_
  h_S_ : 0 < S_.numel
  bcast_S_S32x512x1x1 : S_.BroadcastsInDim S32x512x1x1 (![] : Fin 0 → Fin S32x512x1x1.rank)
  reducesTo_S32x512x1x1_S_d0_1_2_3 : S32x512x1x1.ReducesTo [0, 1, 2, 3] S_
  bcast_S_S512x32x1x1 : S_.BroadcastsInDim S512x32x1x1 (![] : Fin 0 → Fin S512x32x1x1.rank)
  reducesTo_S512x32x1x1_S_d0_1_2_3 : S512x32x1x1.ReducesTo [0, 1, 2, 3] S_

variable [Facts]

def fn {F : FTy → Type} [FloatOps F] (main_arg0 : FVec F S32x512x32x32 .f32) (main_arg1 : FVec F S32x512x1x1 .f32) (main_arg2 : FVec F S512x32x1x1 .f32) : IVec S_ 1 :=
  let main_v0 : FVec F S32x512x32x32 .f32 := Host.absf main_arg0
  let main_cst : FVec F S_ .f32 := constant S_ .f32 0x7F800000#32
  let main_v1 : FVec F S32x512x32x32 .f32 := broadcastInDim S32x512x32x32 ![] bcast_S_S32x512x32x32 main_cst
  let main_v2 : IVec S32x512x32x32 1 := cmpf .olt main_v0 main_v1
  let main_c : IVec S_ 1 := constantI S_ 1 1#1
  let main_v3 : IVec S_ 1 := (fun x v => Host.reduce IntOp.andi x v reducesTo_S32x512x32x32_S_d0_1_2_3 h_S_) main_v2 main_c
  let main_v4 : FVec F S32x512x1x1 .f32 := Host.absf main_arg1
  let main_cst_0 : FVec F S_ .f32 := constant S_ .f32 0x7F800000#32
  let main_v5 : FVec F S32x512x1x1 .f32 := broadcastInDim S32x512x1x1 ![] bcast_S_S32x512x1x1 main_cst_0
  let main_v6 : IVec S32x512x1x1 1 := cmpf .olt main_v4 main_v5
  let main_c_1 : IVec S_ 1 := constantI S_ 1 1#1
  let main_v7 : IVec S_ 1 := (fun x v => Host.reduce IntOp.andi x v reducesTo_S32x512x1x1_S_d0_1_2_3 h_S_) main_v6 main_c_1
  let main_v8 : IVec S_ 1 := andi main_v3 main_v7
  let main_v9 : FVec F S512x32x1x1 .f32 := Host.absf main_arg2
  let main_cst_2 : FVec F S_ .f32 := constant S_ .f32 0x7F800000#32
  let main_v10 : FVec F S512x32x1x1 .f32 := broadcastInDim S512x32x1x1 ![] bcast_S_S512x32x1x1 main_cst_2
  let main_v11 : IVec S512x32x1x1 1 := cmpf .olt main_v9 main_v10
  let main_c_3 : IVec S_ 1 := constantI S_ 1 1#1
  let main_v12 : IVec S_ 1 := (fun x v => Host.reduce IntOp.andi x v reducesTo_S512x32x1x1_S_d0_1_2_3 h_S_) main_v11 main_c_3
  let main_v13 : IVec S_ 1 := andi main_v8 main_v12
  main_v13
-- ==== Kernel.lean ====
abbrev S32x512x32x32 : Shape := ⟨4, ![32, 512, 32, 32]⟩
abbrev S32x512x1x1 : Shape := ⟨4, ![32, 512, 1, 1]⟩
abbrev S512x32x1x1 : Shape := ⟨4, ![512, 32, 1, 1]⟩
abbrev S32x32x32x512 : Shape := ⟨4, ![32, 32, 32, 512]⟩
abbrev S32x1024x512 : Shape := ⟨3, ![32, 1024, 512]⟩
abbrev S32x1x512 : Shape := ⟨3, ![32, 1, 512]⟩
abbrev S32x1x1x512 : Shape := ⟨4, ![32, 1, 1, 512]⟩
abbrev S4x1024x512 : Shape := ⟨3, ![4, 1024, 512]⟩
abbrev S4x1x512 : Shape := ⟨3, ![4, 1, 512]⟩
abbrev S4x512 : Shape := ⟨2, ![4, 512]⟩
abbrev S8x512 : Shape := ⟨2, ![8, 512]⟩
abbrev S32x512 : Shape := ⟨2, ![32, 512]⟩
abbrev S8x32 : Shape := ⟨2, ![8, 32]⟩
abbrev S4x32 : Shape := ⟨2, ![4, 32]⟩

abbrev nBuf : Space → Nat
  | .hbm => 10
  | .vmem => 6
  | .smem => 0
  | _ => 0

abbrev bufTy : (tb : Table) → Fin (tcTables nBuf tb) → BufTy
  | .hbm, ⟨0, _⟩ => ⟨S32x512x32x32, .f32⟩
  | .hbm, ⟨1, _⟩ => ⟨S32x512x1x1, .f32⟩
  | .hbm, ⟨2, _⟩ => ⟨S512x32x1x1, .f32⟩
  | .hbm, ⟨3, _⟩ => ⟨S32x32x32x512, .f32⟩
  | .hbm, ⟨4, _⟩ => ⟨S32x1024x512, .f32⟩
  | .hbm, ⟨5, _⟩ => ⟨S32x1x512, .f32⟩
  | .hbm, ⟨6, _⟩ => ⟨S32x1x1x512, .f32⟩
  | .hbm, ⟨7, _⟩ => ⟨S32x1x512, .f32⟩
  | .hbm, ⟨8, _⟩ => ⟨S32x1x512, .f32⟩
  | .hbm, ⟨9, _⟩ => ⟨S32x512x1x1, .f32⟩
  | .local _ .vmem, ⟨0, _⟩ => ⟨S4x1024x512, .f32⟩
  | .local _ .vmem, ⟨1, _⟩ => ⟨S4x1024x512, .f32⟩
  | .local _ .vmem, ⟨2, _⟩ => ⟨S32x1x512, .f32⟩
  | .local _ .vmem, ⟨3, _⟩ => ⟨S32x1x512, .f32⟩
  | .local _ .vmem, ⟨4, _⟩ => ⟨S4x1x512, .f32⟩
  | .local _ .vmem, ⟨5, _⟩ => ⟨S4x1x512, .f32⟩
  | _, _ => ⟨S32x512x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_v4 : Ref sig .tc := ⟨.hbm, 7, rfl⟩
abbrev main_call0_v5 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S32x512x32x32_S32x32x32x512_0_2_3_1 : S32x512x32x32.Transposes [0, 2, 3, 1] S32x32x32x512
  shapeCasts_S32x32x32x512_S32x1024x512 : S32x32x32x512.ShapeCasts S32x1024x512
  shapeCasts_S32x512x1x1_S32x1x512 : S32x512x1x1.ShapeCasts S32x1x512
  transposes_S512x32x1x1_S32x1x1x512_1_2_3_0 : S512x32x1x1.Transposes [1, 2, 3, 0] S32x1x1x512
  shapeCasts_S32x1x1x512_S32x1x512 : S32x1x1x512.ShapeCasts S32x1x512
  shapeCasts_S32x1x512_S32x512x1x1 : S32x1x512.ShapeCasts S32x512x1x1
  inb_S4x1024x512_S4x1024x512_0_0_0 : ∀ a, (![0, 0, 0] : Fin 3 → Nat) a + S4x1024x512.size a ≤ S4x1024x512.size a
  h_S4x1024x512 : 0 < S4x1024x512.numel
  shapeCasts_S4x1024x512_S4x1024x512 : S4x1024x512.ShapeCasts S4x1024x512
  reduces_S4x1024x512_S4x512 : S4x1024x512.Reduces [1] S4x512
  concatenates_S4x512_S4x512_S8x512_d0 : Shape.Concatenates [S4x512, S4x512] S8x512 0
  inb_S32x1x512_S32x1x512_0_0_0 : ∀ a, (![0, 0, 0] : Fin 3 → Nat) a + S32x1x512.size a ≤ S32x1x512.size a
  h_S32x1x512 : 0 < S32x1x512.numel
  shapeCasts_S32x1x512_S32x512 : S32x1x512.ShapeCasts S32x512
  slices_S8x32_o0_0_S4x32 : S8x32.Slices ![0, 0] S4x32
  slices_S8x32_o4_0_S4x32 : S8x32.Slices ![4, 0] S4x32
  shapeCasts_S4x512_S4x1x512 : S4x512.ShapeCasts S4x1x512
  inb_S4x1x512_S4x1x512_0_0_0 : ∀ a, (![0, 0, 0] : Fin 3 → Nat) a + S4x1x512.size a ≤ S4x1x512.size a
  h_S4x1x512 : 0 < S4x1x512.numel
  dot_S8x512_S32x512_S8x32_1_1_0_0_n_n_wf : DotDims.WF S8x512 S32x512 S8x32 [1] [1] [0] [0] [] []
  dot_S4x32_S32x512_S4x512_1_0_0_1_n_n_wf : DotDims.WF S4x32 S32x512 S4x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x1024x512.size a ≤ S32x1024x512.size a
  hwx0_0 : ∀ i : grid0.Coords, EltTy.bits .f32 = 32 ∨ (Rect.block (s := S32x1024x512) S4x1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x1x512.size a ≤ S32x1x512.size a
  hwx0_1 : ∀ i : grid0.Coords, EltTy.bits .f32 = 32 ∨ (Rect.block (s := S32x1x512) S32x1x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x1x512.size a ≤ S32x1x512.size a
  hwx0_2 : ∀ i : grid0.Coords, EltTy.bits .f32 = 32 ∨ (Rect.block (s := S32x1x512) S32x1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x1x512.size a ≤ S32x1x512.size a
  hwx0_3 : ∀ i : grid0.Coords, EltTy.bits .f32 = 32 ∨ (Rect.block (s := S32x1x512) S4x1x512.size (cc0_transform_3 i) (hinb0_3 i)).WholeWords (EltTy.packing .f32)

variable [Facts₀]

def dot_S8x512_S32x512_S8x32_1_1_0_0_n_n : DotDims S8x512 S32x512 S8x32 where
  lhsContracting := [1]
  rhsContracting := [1]
  lhsNonContracting := [0]
  rhsNonContracting := [0]
  lhsBatch := []
  rhsBatch := []
  wf := dot_S8x512_S32x512_S8x32_1_1_0_0_n_n_wf
def dot_S4x32_S32x512_S4x512_1_0_0_1_n_n : DotDims S4x32 S32x512 S4x512 where
  lhsContracting := [1]
  rhsContracting := [0]
  lhsNonContracting := [0]
  rhsNonContracting := [1]
  lhsBatch := []
  rhsBatch := []
  wf := dot_S4x32_S32x512_S4x512_1_0_0_1_n_n_wf

abbrev win0_0 : Pipeline.Window sig grid0 :=
  Pipeline.Window.ofSpec (Memref.whole main_call0_v1) S4x1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v2) S32x1x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v4) S32x1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v5) S4x1x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x512x32x32 : Shape := ⟨4, ![32, 512, 32, 32]⟩
abbrev S32x512x1x1 : Shape := ⟨4, ![32, 512, 1, 1]⟩
abbrev S512x32x1x1 : Shape := ⟨4, ![512, 32, 1, 1]⟩
abbrev S16384x1024 : Shape := ⟨2, ![16384, 1024]⟩
abbrev S16384x1 : Shape := ⟨2, ![16384, 1]⟩
abbrev S16384 : Shape := ⟨1, ![16384]⟩
abbrev S32x512 : Shape := ⟨2, ![32, 512]⟩
abbrev S512x32 : Shape := ⟨2, ![512, 32]⟩
abbrev S_ : Shape := ⟨0, ![]⟩
abbrev S64x512 : Shape := ⟨2, ![64, 512]⟩
abbrev S1 : Shape := ⟨1, ![1]⟩
abbrev S512x128 : Shape := ⟨2, ![512, 128]⟩
abbrev S128x512 : Shape := ⟨2, ![128, 512]⟩
abbrev S2048x1024 : Shape := ⟨2, ![2048, 1024]⟩
abbrev S2048x1 : Shape := ⟨2, ![2048, 1]⟩
abbrev S2048 : Shape := ⟨1, ![2048]⟩
abbrev S64x128 : Shape := ⟨2, ![64, 128]⟩

abbrev nBuf : Space → Nat
  | .hbm => 34
  | .vmem => 10
  | .smem => 0
  | _ => 0

abbrev bufTy : (tb : Table) → Fin (tcTables nBuf tb) → BufTy
  | .hbm, ⟨0, _⟩ => ⟨S32x512x32x32, .f32⟩
  | .hbm, ⟨1, _⟩ => ⟨S32x512x1x1, .f32⟩
  | .hbm, ⟨2, _⟩ => ⟨S512x32x1x1, .f32⟩
  | .hbm, ⟨3, _⟩ => ⟨S16384x1024, .f32⟩
  | .hbm, ⟨4, _⟩ => ⟨S16384x1, .f32⟩
  | .hbm, ⟨5, _⟩ => ⟨S16384x1, .f32⟩
  | .hbm, ⟨6, _⟩ => ⟨S16384, .f32⟩
  | .hbm, ⟨7, _⟩ => ⟨S32x512, .f32⟩
  | .hbm, ⟨8, _⟩ => ⟨S16384, .f32⟩
  | .hbm, ⟨9, _⟩ => ⟨S32x512, .f32⟩
  | .hbm, ⟨10, _⟩ => ⟨S32x512, .f32⟩
  | .hbm, ⟨11, _⟩ => ⟨S512x32, .f32⟩
  | .hbm, ⟨12, _⟩ => ⟨S512x32, .f32⟩
  | .hbm, ⟨13, _⟩ => ⟨S32x512, .f32⟩
  | .hbm, ⟨14, _⟩ => ⟨S_, .f32⟩
  | .hbm, ⟨15, _⟩ => ⟨S64x512, .f32⟩
  | .hbm, ⟨16, _⟩ => ⟨S_, .i32⟩
  | .hbm, ⟨17, _⟩ => ⟨S1, .i32⟩
  | .hbm, ⟨18, _⟩ => ⟨S64x512, .f32⟩
  | .hbm, ⟨19, _⟩ => ⟨S_, .i32⟩
  | .hbm, ⟨20, _⟩ => ⟨S1, .i32⟩
  | .hbm, ⟨21, _⟩ => ⟨S64x512, .f32⟩
  | .hbm, ⟨22, _⟩ => ⟨S_, .f32⟩
  | .hbm, ⟨23, _⟩ => ⟨S512x128, .f32⟩
  | .hbm, ⟨24, _⟩ => ⟨S_, .i32⟩
  | .hbm, ⟨25, _⟩ => ⟨S1, .i32⟩
  | .hbm, ⟨26, _⟩ => ⟨S512x128, .f32⟩
  | .hbm, ⟨27, _⟩ => ⟨S_, .f32⟩
  | .hbm, ⟨28, _⟩ => ⟨S128x512, .f32⟩
  | .hbm, ⟨29, _⟩ => ⟨S_, .i32⟩
  | .hbm, ⟨30, _⟩ => ⟨S1, .i32⟩
  | .hbm, ⟨31, _⟩ => ⟨S128x512, .f32⟩
  | .hbm, ⟨32, _⟩ => ⟨S32x512, .f32⟩
  | .hbm, ⟨33, _⟩ => ⟨S32x512x1x1, .f32⟩
  | .local _ .vmem, ⟨0, _⟩ => ⟨S2048x1024, .f32⟩
  | .local _ .vmem, ⟨1, _⟩ => ⟨S2048x1024, .f32⟩
  | .local _ .vmem, ⟨2, _⟩ => ⟨S2048x1, .f32⟩
  | .local _ .vmem, ⟨3, _⟩ => ⟨S2048x1, .f32⟩
  | .local _ .vmem, ⟨4, _⟩ => ⟨S2048x1, .f32⟩
  | .local _ .vmem, ⟨5, _⟩ => ⟨S2048x1, .f32⟩
  | .local _ .vmem, ⟨6, _⟩ => ⟨S64x512, .f32⟩
  | .local _ .vmem, ⟨7, _⟩ => ⟨S512x128, .f32⟩
  | .local _ .vmem, ⟨8, _⟩ => ⟨S128x512, .f32⟩
  | .local _ .vmem, ⟨9, _⟩ => ⟨S32x512, .f32⟩
  | _, _ => ⟨S32x512x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1_0 : Ref sig .tc := ⟨.hbm, 4, rfl⟩
abbrev main_call0_v1_1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_v7 : Ref sig .tc := ⟨.hbm, 11, rfl⟩
abbrev main_call0_v8 : Ref sig .tc := ⟨.hbm, 12, rfl⟩
abbrev main_call0_v9 : Ref sig .tc := ⟨.hbm, 13, rfl⟩
abbrev main_call0_cst : Ref sig .tc := ⟨.hbm, 14, rfl⟩
abbrev main_call0_v10 : Ref sig .tc := ⟨.hbm, 15, rfl⟩
abbrev main_call0_c : Ref sig .tc := ⟨.hbm, 16, rfl⟩
abbrev main_call0_v11 : Ref sig .tc := ⟨.hbm, 17, rfl⟩
abbrev main_call0_v12 : Ref sig .tc := ⟨.hbm, 18, rfl⟩
abbrev main_call0_c_0 : Ref sig .tc := ⟨.hbm, 19, rfl⟩
abbrev main_call0_v13 : Ref sig .tc := ⟨.hbm, 20, rfl⟩
abbrev main_call0_v14 : Ref sig .tc := ⟨.hbm, 21, rfl⟩
abbrev main_call0_cst_1 : Ref sig .tc := ⟨.hbm, 22, rfl⟩
abbrev main_call0_v15 : Ref sig .tc := ⟨.hbm, 23, rfl⟩
abbrev main_call0_c_2 : Ref sig .tc := ⟨.hbm, 24, rfl⟩
abbrev main_call0_v16 : Ref sig .tc := ⟨.hbm, 25, rfl⟩
abbrev main_call0_v17 : Ref sig .tc := ⟨.hbm, 26, rfl⟩
abbrev main_call0_cst_3 : Ref sig .tc := ⟨.hbm, 27, rfl⟩
abbrev main_call0_v18 : Ref sig .tc := ⟨.hbm, 28, rfl⟩
abbrev main_call0_c_4 : Ref sig .tc := ⟨.hbm, 29, rfl⟩
abbrev main_call0_v19 : Ref sig .tc := ⟨.hbm, 30, rfl⟩
abbrev main_call0_v20 : Ref sig .tc := ⟨.hbm, 31, rfl⟩
abbrev main_call0_v21 : Ref sig .tc := ⟨.hbm, 32, rfl⟩
abbrev main_v0 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem1_0 : DmaSem sig := 7
abbrev cc1_sem2_0 : DmaSem sig := 8
abbrev cc1_sem3_0 : DmaSem sig := 9

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := .none

abbrev stage1_0 : Fin 1 → Memref sig .tc .vmem S64x512 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S512x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S128x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S32x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

class Facts₀ : Prop where
  shapeCasts_S32x512x32x32_S16384x1024 : S32x512x32x32.ShapeCasts S16384x1024
  shapeCasts_S16384x1_S16384 : S16384x1.ShapeCasts S16384
  shapeCasts_S16384_S32x512 : S16384.ShapeCasts S32x512
  shapeCasts_S32x512x1x1_S32x512 : S32x512x1x1.ShapeCasts S32x512
  transposes_S32x512_S512x32_1_0 : S32x512.Transposes [1, 0] S512x32
  shapeCasts_S512x32x1x1_S512x32 : S512x32x1x1.ShapeCasts S512x32
  transposes_S512x32_S32x512_1_0 : S512x32.Transposes [1, 0] S32x512
  bcast_S_S64x512 : S_.BroadcastsInDim S64x512 (![] : Fin 0 → Fin S64x512.rank)
  bcast_S_S1 : S_.BroadcastsInDim S1 (![] : Fin 0 → Fin S1.rank)
  bcast_S_S512x128 : S_.BroadcastsInDim S512x128 (![] : Fin 0 → Fin S512x128.rank)
  bcast_S_S128x512 : S_.BroadcastsInDim S128x512 (![] : Fin 0 → Fin S128x512.rank)
  shapeCasts_S32x512_S32x512x1x1 : S32x512.ShapeCasts S32x512x1x1
  inb_S2048x1_S2048x1_0_0 : ∀ a, (![0, 0] : Fin 2 → Nat) a + S2048x1.size a ≤ S2048x1.size a
  h_S2048x1 : 0 < S2048x1.numel
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  shapeCasts_S2048x1_S2048x1 : S2048x1.ShapeCasts S2048x1
  reduces_S2048x1024_S2048 : S2048x1024.Reduces [1] S2048
  shapeCasts_S2048_S2048x1 : S2048.ShapeCasts S2048x1
  inb_S64x512_S64x512_0_0 : ∀ a, (![0, 0] : Fin 2 → Nat) a + S64x512.size a ≤ S64x512.size a
  h_S64x512 : 0 < S64x512.numel
  shapeCasts_S64x512_S64x512 : S64x512.ShapeCasts S64x512
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S128x512_S128x512_0_0 : ∀ a, (![0, 0] : Fin 2 → Nat) a + S128x512.size a ≤ S128x512.size a
  h_S128x512 : 0 < S128x512.numel
  shapeCasts_S128x512_S128x512 : S128x512.ShapeCasts S128x512
  slices_S64x512_o0_0_S32x512 : S64x512.Slices ![0, 0] S32x512
  slices_S64x512_o32_0_S32x512 : S64x512.Slices ![32, 0] S32x512
  inb_S32x512_S32x512_0_0 : ∀ a, (![0, 0] : Fin 2 → Nat) a + S32x512.size a ≤ S32x512.size a
  h_S32x512 : 0 < S32x512.numel
  scatter_S64x512_S1_S32x512_01_n_0_0_wf : ScatterDims.WF S64x512 S1 S32x512 [0, 1] [] [0] 0
  scatter_S512x128_S1_S512x32_01_n_1_0_wf : ScatterDims.WF S512x128 S1 S512x32 [0, 1] [] [1] 0
  scatter_S128x512_S1_S32x512_01_n_0_0_wf : ScatterDims.WF S128x512 S1 S32x512 [0, 1] [] [0] 0
  dot_S64x512_S512x128_S64x128_1_0_0_1_n_n_wf : DotDims.WF S64x512 S512x128 S64x128 [1] [0] [0] [1] [] []
  dot_S64x128_S128x512_S64x512_1_0_0_1_n_n_wf : DotDims.WF S64x128 S128x512 S64x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S16384x1024.size a
  hwx0_0 : ∀ i : grid0.Coords, EltTy.bits .f32 = 32 ∨ (Rect.block (s := S16384x1024) S2048x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1.size a ≤ S16384x1.size a
  hwx0_1 : ∀ i : grid0.Coords, EltTy.bits .f32 = 32 ∨ (Rect.block (s := S16384x1) S2048x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1.size a ≤ S16384x1.size a
  hwx0_2 : ∀ i : grid0.Coords, EltTy.bits .f32 = 32 ∨ (Rect.block (s := S16384x1) S2048x1.size (cc0_transform_2 i) (hinb0_2 i)).WholeWords (EltTy.packing .f32)
  hstage1_0 : ∀ j, (stage1_0 j).IsWhole
  hstage1_1 : ∀ j, (stage1_1 j).IsWhole
  hstage1_2 : ∀ j, (stage1_2 j).IsWhole
  hstage1_3 : ∀ j, (stage1_3 j).IsWhole

variable [Facts₀]

def scatter_S64x512_S1_S32x512_01_n_0_0 : ScatterDims S64x512 S1 S32x512 where
  updateWindowDims := [0, 1]
  insertedWindowDims := []
  scatterDimsToOperandDims := [0]
  indexVectorDim := 0
  wf := scatter_S64x512_S1_S32x512_01_n_0_0_wf
def scatter_S512x128_S1_S512x32_01_n_1_0 : ScatterDims S512x128 S1 S512x32 where
  updateWindowDims := [0, 1]
  insertedWindowDims := []
  scatterDimsToOperandDims := [1]
  indexVectorDim := 0
  wf := scatter_S512x128_S1_S512x32_01_n_1_0_wf
def scatter_S128x512_S1_S32x512_01_n_0_0 : ScatterDims S128x512 S1 S32x512 where
  updateWindowDims := [0, 1]
  insertedWindowDims := []
  scatterDimsToOperandDims := [0]
  indexVectorDim := 0
  wf := scatter_S128x512_S1_S32x512_01_n_0_0_wf
def dot_S64x512_S512x128_S64x128_1_0_0_1_n_n : DotDims S64x512 S512x128 S64x128 where
  lhsContracting := [1]
  rhsContracting := [0]
  lhsNonContracting := [0]
  rhsNonContracting := [1]
  lhsBatch := []
  rhsBatch := []
  wf := dot_S64x512_S512x128_S64x128_1_0_0_1_n_n_wf
def dot_S64x128_S128x512_S64x512_1_0_0_1_n_n : DotDims S64x128 S128x512 S64x512 where
  lhsContracting := [1]
  rhsContracting := [0]
  lhsNonContracting := [0]
  rhsNonContracting := [1]
  lhsBatch := []
  rhsBatch := []
  wf := dot_S64x128_S128x512_S64x512_1_0_0_1_n_n_wf

abbrev win0_0 : Pipeline.Window sig grid0 :=
  Pipeline.Window.ofSpec (Memref.whole main_call0_v0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v1_0) S2048x1.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v1_1) S2048x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.whole (Memref.whole main_call0_v14) false false (stage1_0 0) (sem1_0 0) (Memref.isWhole_whole _) (hstage1_0 0)

abbrev win1_1 : Pipeline.Window sig grid1 :=
  Pipeline.Window.whole (Memref.whole main_call0_v17) false false (stage1_1 0) (sem1_1 0) (Memref.isWhole_whole _) (hstage1_1 0)

abbrev win1_2 : Pipeline.Window sig grid1 :=
  Pipeline.Window.whole (Memref.whole main_call0_v20) false false (stage1_2 0) (sem1_2 0) (Memref.isWhole_whole _) (hstage1_2 0)

abbrev win1_3 : Pipeline.Window sig grid1 :=
  Pipeline.Window.whole (Memref.whole main_call0_v21) true false (stage1_3 0) (sem1_3 0) (Memref.isWhole_whole _) (hstage1_3 0)

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== Proof.Spec.lean ====
/-
  The channel-attention map as two functions of the argument arrays, over the extended reals.

  For a batch `b` and a channel `c` the input `x[b, c, ·, ·]` is pooled over its 32 × 32 spatial positions
  (numbered `s = 32·h + w`) twice: its maximum `pmax` and its sum times 2⁻¹⁰ `pavg`. Each pooled vector (over the 512
  channels) goes through the same two-layer map: a product with `w1` (32 hidden units), a maximum with zero, a product
  with `w2`; the two results are added and the logistic function is applied.

  `kOutAt` adds the two hidden vectors BEFORE the second product (one product with `w2`); `rOutAt` multiplies each hidden
  vector by `w2` and adds AFTER, over hidden vectors padded with zero columns from 32 to 128. They are the same function
  (Proof/Bridge.lean).
-/
import Idealize.ShloMosaic.PureOps.Ideal
import Idealize.ShloMosaic.Lib.ValueIdx

noncomputable section

namespace Cert.Spec

open Idealize.ShloMosaic Idealize.ShloMosaic.ValueIdx

/-- The input `x`: batch, channel, row, column. -/
abbrev SX : Shape := ⟨4, ![32, 512, 32, 32]⟩
/-- The first layer's weights `w1[j, c, 0, 0]` (and the result's shape `[b, c, 0, 0]`). -/
abbrev SW1 : Shape := ⟨4, ![32, 512, 1, 1]⟩
/-- The second layer's weights `w2[c, j, 0, 0]`. -/
abbrev SW2 : Shape := ⟨4, ![512, 32, 1, 1]⟩

/-- The value the maxima start from: the f32 pattern of `-∞`. -/
def negInf : EReal := Ideal.ofBits .f32 0xFF800000#32
/-- The factor of the mean: the f32 pattern of `2⁻¹⁰ = 1/1024`. -/
def invHW : EReal := Ideal.ofBits .f32 0x3A800000#32

/-- The row of spatial position `s = 32·h + w`. -/
def hi (s : Fin 1024) : Fin 32 := ⟨s.val / 32, by omega⟩
/-- The column of spatial position `s = 32·h + w`. -/
def lo (s : Fin 1024) : Fin 32 := ⟨s.val % 32, by omega⟩

/-- The maximum of `x[b, c, ·, ·]` over the 1024 spatial positions, from `-∞`. -/
def pmax (x : SX.Idx → EReal) (b : Fin 32) (c : Fin 512) : EReal :=
  (Finset.univ : Finset (Fin 1024)).fold max negInf (fun s => x (ix4 b c (hi s) (lo s)))

/-- The sum of `x[b, c, ·, ·]` over the 1024 spatial positions, times `2⁻¹⁰`. -/
def pavg (x : SX.Idx → EReal) (b : Fin 32) (c : Fin 512) : EReal :=
  (∑ s : Fin 1024, x (ix4 b c (hi s) (lo s))) * invHW

/-- Hidden unit `j` of a pooled vector `p`: `max (∑_c p c · w1[j, c]) 0`. -/
def hid (p : Fin 512 → EReal) (w1 : SW1.Idx → EReal) (j : Fin 32) : EReal :=
  max (∑ c : Fin 512, p c * w1 (ix4 j c 0 0)) 0

/-- The attention at `(b, c)` with the hidden vectors added before the second product. -/
def kOutAt (x : SX.Idx → EReal) (w1 : SW1.Idx → EReal) (w2 : SW2.Idx → EReal) (b : Fin 32) (c : Fin 512) : EReal :=
  Ideal.logistic (∑ j : Fin 32, (hid (pmax x b) w1 j + hid (pavg x b) w1 j) * w2 (ix4 c j 0 0))

/-- The whole result array, first form. -/
def kernelOut (x : SX.Idx → EReal) (w1 : SW1.Idx → EReal) (w2 : SW2.Idx → EReal) : SW1.Idx → EReal :=
  fun i => kOutAt x w1 w2 (i 0) (i 1)

/-- `w1` transposed and padded with zero columns: `[c, j]`, `j < 128`. -/
def w1p (w1 : SW1.Idx → EReal) (c : Fin 512) (j : Fin 128) : EReal :=
  if h : j.val < 32 then w1 (ix4 ⟨j.val, h⟩ c 0 0) else 0
/-- `w2` transposed and padded with zero rows: `[j, c]`, `j < 128`. -/
def w2p (w2 : SW2.Idx → EReal) (j : Fin 128) (c : Fin 512) : EReal :=
  if h : j.val < 32 then w2 (ix4 c ⟨j.val, h⟩ 0 0) else 0

/-- Hidden unit `j < 128` of a pooled vector against the padded first layer. -/
def hidP (p : Fin 512 → EReal) (w1 : SW1.Idx → EReal) (j : Fin 128) : EReal :=
  max (∑ c : Fin 512, p c * w1p w1 c j) 0

/-- The attention at `(b, c)` with each hidden vector multiplied by the padded second layer and the products added. -/
def rOutAt (x : SX.Idx → EReal) (w1 : SW1.Idx → EReal) (w2 : SW2.Idx → EReal) (b : Fin 32) (c : Fin 512) : EReal :=
  Ideal.logistic ((∑ j : Fin 128, hidP (pmax x b) w1 j * w2p w2 j c) + (∑ j : Fin 128, hidP (pavg x b) w1 j * w2p w2 j c))

/-- The whole result array, second form. -/
def refOut (x : SX.Idx → EReal) (w1 : SW1.Idx → EReal) (w2 : SW2.Idx → EReal) : SW1.Idx → EReal :=
  fun i => rOutAt x w1 w2 (i 0) (i 1)

/-! ## The second program's intermediate arrays -/

/-- The maximum of row `r` of a `[16384, 1024]` array, from `-∞`. -/
def rowMax (X : (⟨2, ![16384, 1024]⟩ : Shape).Idx → EReal) (r : Fin 16384) : EReal :=
  (Finset.univ : Finset (Fin 1024)).fold max negInf (fun k => X (ix2 r k))
/-- The sum of row `r` of a `[16384, 1024]` array, times `2⁻¹⁰`. -/
def rowAvg (X : (⟨2, ![16384, 1024]⟩ : Shape).Idx → EReal) (r : Fin 16384) : EReal :=
  (∑ k : Fin 1024, X (ix2 r k)) * invHW

/-- Row `b` of the upper half of a 64-row stack. -/
def upper (b : Fin 32) : Fin 64 := ⟨b.val, by omega⟩
/-- Row `b` of the lower half of a 64-row stack. -/
def lower (b : Fin 32) : Fin 64 := ⟨32 + b.val, by omega⟩

/-- The two-layer map on a stack `XS` of 64 pooled rows (32 maxima over 32 means) against a `[512, 128]` first layer
    `W1P` and a `[128, 512]` second layer `W2P`, at `(b, c)`: each stacked row's hidden vector times the second layer,
    the two halves added, the logistic function applied. -/
def mlpAt (XS : (⟨2, ![64, 512]⟩ : Shape).Idx → EReal) (W1P : (⟨2, ![512, 128]⟩ : Shape).Idx → EReal)
    (W2P : (⟨2, ![128, 512]⟩ : Shape).Idx → EReal) (b : Fin 32) (c : Fin 512) : EReal :=
  Ideal.logistic
    ((∑ j : Fin 128, max (∑ k : Fin 512, XS (ix2 (upper b) k) * W1P (ix2 k j)) 0 * W2P (ix2 j c))
      + (∑ j : Fin 128, max (∑ k : Fin 512, XS (ix2 (lower b) k) * W1P (ix2 k j)) 0 * W2P (ix2 j c)))

end Cert.Spec

end
-- ==== Proof.KHost.lean ====
/-
  The arrays the kernel's region stages, and the host operation after it, read at an index.

  Before the region the host moves the input's channel axis last and merges its two spatial axes
  (`[32, 512, 32, 32] → [32, 32, 32, 512] → [32, 1024, 512]`: entry `(b, s, k)` is `x[b, k, s / 32, s % 32]`), re-lays the
  first weights (`[32, 512, 1, 1] → [32, 1, 512]`: entry `(j, 0, k)` is `w1[j, k, 0, 0]`) and moves the second weights'
  first axis last before re-laying them (`[512, 32, 1, 1] → [32, 1, 1, 512] → [32, 1, 512]`: entry `(j, 0, k)` is
  `w2[k, j, 0, 0]`). After the region it re-lays the result `[32, 1, 512] → [32, 512, 1, 1]`.
-/
import proofs.«103996_g2000006314751908_pallasbulk_691_21_alg».proof.Proof.Gen.KernelIdeal.Frame
import proofs.«103996_g2000006314751908_pallasbulk_691_21_alg».proof.Proof.Spec
import Idealize.ShloMosaic.Lib.Pipeline.Value
import Idealize.ShloMosaic.Lib.ValueIdx

noncomputable section
namespace Cert.KernelIdeal.KHost
open Idealize.ShloMosaic Idealize.ShloMosaic.ValueIdx Idealize.ShloMosaic.TcCoe Idealize.SL.Sem
open Cert.KernelIdeal Cert.KernelIdeal.Gen

variable (m : (ℓ : Loc nD τ sig) → Buf (Elt Ideal) ℓ)

/-! ## The arrays the region finds, as the host operations before it leave them -/

/-- The first staged array is the input with the channel axis moved last, its two spatial axes then merged. -/
theorem V_v1 (c : Dev nD) : (V m c main_call0_v1 : S32x1024x512.Idx → EReal)
    = shapeCast S32x1024x512 (transpose S32x32x32x512 [0, 2, 3, 1] (m ((c : Thread nD τ).loc main_arg0) : S32x512x32x32.Idx → EReal)
        transposes_S32x512x32x32_S32x32x32x512_0_2_3_1) shapeCasts_S32x32x32x512_S32x1024x512 := by
  show StableHlo.after hostOps0 (fun b => m (c, b)) (Proc.devRef .tc main_call0_v1) = _
  after_results
  rfl

/-- The second staged array is the first weights re-laid from `[32, 512, 1, 1]` to `[32, 1, 512]`. -/
theorem V_v2 (c : Dev nD) : (V m c main_call0_v2 : S32x1x512.Idx → EReal)
    = shapeCast S32x1x512 (m ((c : Thread nD τ).loc main_arg1) : S32x512x1x1.Idx → EReal) shapeCasts_S32x512x1x1_S32x1x512 := by
  show StableHlo.after hostOps0 (fun b => m (c, b)) (Proc.devRef .tc main_call0_v2) = _
  after_results
  rfl

/-- The third staged array is the second weights with their first axis moved last, then re-laid to `[32, 1, 512]`. -/
theorem V_v4 (c : Dev nD) : (V m c main_call0_v4 : S32x1x512.Idx → EReal)
    = shapeCast S32x1x512 (transpose S32x1x1x512 [1, 2, 3, 0] (m ((c : Thread nD τ).loc main_arg2) : S512x32x1x1.Idx → EReal)
        transposes_S512x32x1x1_S32x1x1x512_1_2_3_0) shapeCasts_S32x1x1x512_S32x1x512 := by
  show StableHlo.after hostOps0 (fun b => m (c, b)) (Proc.devRef .tc main_call0_v4) = _
  after_results
  rfl

/-! ## The same at an index -/

/-- Entry `(b, s, k)` of the first staged array is the input at batch `b`, channel `k`, row `s / 32`, column `s % 32`. -/
theorem V_v1_apply (c : Dev nD) (b : Fin 32) (s : Fin 1024) (k : Fin 512) :
    (V m c main_call0_v1 : S32x1024x512.Idx → EReal) (ix3 b s k)
      = (m ((c : Thread nD τ).loc main_arg0) : Cert.Spec.SX.Idx → EReal) (ix4 b k (Cert.Spec.hi s) (Cert.Spec.lo s)) := by
  rw [V_v1]
  refine (shapeCast_apply _ _ (ix3 b s k) (ix4 b (Cert.Spec.hi s) (Cert.Spec.lo s) k) ?_).trans ?_
  · rw [Shape.rowMajor_val_four, Shape.rowMajor_val_three]
    show ((b.val * 32 + s.val / 32) * 32 + s.val % 32) * 512 + k.val = (b.val * 1024 + s.val) * 512 + k.val
    omega
  · refine transpose_apply _ _ _ (ix4 b (Cert.Spec.hi s) (Cert.Spec.lo s) k) (ix4 b k (Cert.Spec.hi s) (Cert.Spec.lo s)) fun a => ?_
    match a with
    | ⟨0, _⟩ => rfl
    | ⟨1, _⟩ => rfl
    | ⟨2, _⟩ => rfl
    | ⟨3, _⟩ => rfl

/-- Entry `(j, 0, k)` of the second staged array is the first weights' entry `(j, k, 0, 0)`. -/
theorem V_v2_apply (c : Dev nD) (j : Fin 32) (k : Fin 512) :
    (V m c main_call0_v2 : S32x1x512.Idx → EReal) (ix3 j 0 k)
      = (m ((c : Thread nD τ).loc main_arg1) : Cert.Spec.SW1.Idx → EReal) (ix4 j k 0 0) := by
  rw [V_v2]
  refine shapeCast_apply _ _ (ix3 j 0 k) (ix4 j k 0 0) ?_
  rw [Shape.rowMajor_val_four, Shape.rowMajor_val_three]
  show ((j.val * 512 + k.val) * 1 + 0) * 1 + 0 = (j.val * 1 + 0) * 512 + k.val
  omega

/-- Entry `(j, 0, k)` of the third staged array is the second weights' entry `(k, j, 0, 0)`. -/
theorem V_v4_apply (c : Dev nD) (j : Fin 32) (k : Fin 512) :
    (V m c main_call0_v4 : S32x1x512.Idx → EReal) (ix3 j 0 k)
      = (m ((c : Thread nD τ).loc main_arg2) : Cert.Spec.SW2.Idx → EReal) (ix4 k j 0 0) := by
  rw [V_v4]
  refine (shapeCast_apply _ _ (ix3 j 0 k) (ix4 j 0 0 k) ?_).trans ?_
  · rw [Shape.rowMajor_val_four, Shape.rowMajor_val_three]
    show ((j.val * 1 + 0) * 1 + 0) * 512 + k.val = (j.val * 1 + 0) * 512 + k.val
    omega
  · refine transpose_apply _ _ _ (ix4 j 0 0 k) (ix4 k j 0 0) fun a => ?_
    match a with
    | ⟨0, _⟩ => rfl
    | ⟨1, _⟩ => rfl
    | ⟨2, _⟩ => rfl
    | ⟨3, _⟩ => rfl

/-! ## The host operation after the region -/

/-- The result re-laid from `[32, 1, 512]` to `[32, 512, 1, 1]`, at an index: entry `(i₀, 0, i₁)`. -/
theorem tail_apply (A : S32x1x512.Idx → EReal) (i : S32x512x1x1.Idx) :
    shapeCast S32x512x1x1 A shapeCasts_S32x1x512_S32x512x1x1 i = A (ix3 (i 0) 0 (i 1)) := by
  refine shapeCast_apply A _ i (ix3 (i 0) 0 (i 1)) ?_
  rw [Shape.rowMajor_val_four, Shape.rowMajor_val_three]
  have h2 : (i 2).val < 1 := (i 2).isLt
  have h3 : (i 3).val < 1 := (i 3).isLt
  show ((i 0).val * 1 + 0) * 512 + (i 1).val = (((i 0).val * 512 + (i 1).val) * 1 + (i 2).val) * 1 + (i 3).val
  omega

end Cert.KernelIdeal.KHost
end
-- ==== Proof.KPay.lean ====
/-
  The value the kernel body stores, at one index, as a function of the three blocks it loads.

  The body loads a `[4, 1024, 512]` block `x0` (4 batch rows, 1024 spatial positions, 512 channels) and two
  `[32, 1, 512]` blocks `x1`, `x2` (the two layers' weights as the host re-laid them). It pools `x0` over the positions
  twice — the maximum from `-∞` and the sum times `2⁻¹⁰` —, stacks the two `[4, 512]` results into 8 rows, multiplies the
  stack with `x1` over the channels (a product into zeros), takes the maximum with zero, adds rows 0–3 to rows 4–7,
  multiplies with `x2` over the 32 hidden units and applies the logistic function. Each stage is named (`maxV` … `preV`;
  the stored value is their composition by definition, `pay_eq`) and read at an index (`maxV_apply` … `preV_apply`):
  a reduction over the middle axis as a fold or sum over `Fin 1024`, a product as the sum over its one contracted
  coordinate, the stack by its two halves. `pay_apply` composes them.
-/
import proofs.«103996_g2000006314751908_pallasbulk_691_21_alg».proof.Proof.Gen.KernelIdeal.Skeleton
import proofs.«103996_g2000006314751908_pallasbulk_691_21_alg».proof.Proof.Spec
import Idealize.ShloMosaic.Lib.Pipeline.Value
import Idealize.ShloMosaic.Lib.ValueIdx
import Idealize.ShloMosaic.PureOps.Ideal.Laws

noncomputable section
namespace Cert.KernelIdeal.KPay
open Idealize.ShloMosaic Idealize.ShloMosaic.ValueIdx Cert.KernelIdeal Cert.KernelIdeal.Gen

/-! ## The stages of the body, named -/

/-- The maxima over the 1024 positions, per batch row and channel. -/
def maxV (x0 : FVec Ideal S4x1024x512 .f32) : FVec Ideal S4x512 .f32 :=
  multiReduction .maximumf [1] S4x512 (shapeCast S4x1024x512 x0 shapeCasts_S4x1024x512_S4x1024x512) 0xFF800000#32 reduces_S4x1024x512_S4x512 (.inl rfl) rfl
/-- The sums over the 1024 positions times the literal `2⁻¹⁰`. -/
def avgV (x0 : FVec Ideal S4x1024x512 .f32) : FVec Ideal S4x512 .f32 :=
  mulf (multiReduction .add [1] S4x512 (shapeCast S4x1024x512 x0 shapeCasts_S4x1024x512_S4x1024x512) 0x00000000#32 reduces_S4x1024x512_S4x512 (.inl rfl) rfl)
    (broadcast S4x512 (Scalar.ofBits .f32 0x3A800000#32))
/-- The 8-row stack: the 4 rows of maxima over the 4 rows of means. -/
def stackV (x0 : FVec Ideal S4x1024x512 .f32) : FVec Ideal S8x512 .f32 :=
  concatenate S8x512 0 [⟨S4x512, maxV x0⟩, ⟨S4x512, avgV x0⟩] concatenates_S4x512_S4x512_S8x512_d0
/-- The hidden layer of the 8 stacked rows: the product with the first weights over the 512 channels, then the maximum with zero. -/
def hidV (x0 : FVec Ideal S4x1024x512 .f32) (x1 : FVec Ideal S32x1x512 .f32) : FVec Ideal S8x32 .f32 :=
  maximumf (matmul dot_S8x512_S32x512_S8x32_1_1_0_0_n_n none (stackV x0) (shapeCast S32x512 x1 shapeCasts_S32x1x512_S32x512 : FVec Ideal S32x512 .f32) (constant S8x32 .f32 0x00000000#32))
    (broadcast S8x32 (Scalar.ofBits .f32 0x00000000#32))
/-- The two halves of the hidden layer added: rows 0–3 plus rows 4–7. -/
def sumV (x0 : FVec Ideal S4x1024x512 .f32) (x1 : FVec Ideal S32x1x512 .f32) : FVec Ideal S4x32 .f32 :=
  addf (extractStridedSlice S4x32 ![0, 0] (hidV x0 x1) slices_S8x32_o0_0_S4x32) (extractStridedSlice S4x32 ![4, 0] (hidV x0 x1) slices_S8x32_o4_0_S4x32)
/-- The product with the second weights over the 32 hidden units. -/
def preV (x0 : FVec Ideal S4x1024x512 .f32) (x1 x2 : FVec Ideal S32x1x512 .f32) : FVec Ideal S4x512 .f32 :=
  matmul dot_S4x32_S32x512_S4x512_1_0_0_1_n_n none (sumV x0 x1) (shapeCast S32x512 x2 shapeCasts_S32x1x512_S32x512 : FVec Ideal S32x512 .f32) (constant S4x512 .f32 0x00000000#32)

/-- The stored value is the logistic function of the last product, re-laid from `[4, 512]` to `[4, 1, 512]`. -/
theorem pay_eq (x0 : FVec Ideal S4x1024x512 .f32) (x1 x2 : FVec Ideal S32x1x512 .f32) :
    k0_pay1 x0 x1 x2 = shapeCast S4x1x512 (logistic (preV x0 x1 x2)) shapeCasts_S4x512_S4x1x512 := rfl

/-! ## Each stage at an index -/

/-- Row `b` of the upper half of the 8-row stack. -/
def rowU (b : Fin 4) : Fin 8 := ⟨b.val, by omega⟩
/-- Row `b` of the lower half of the 8-row stack. -/
def rowL (b : Fin 4) : Fin 8 := ⟨4 + b.val, by omega⟩

-- the reduced axis's coordinate has the type `Fin (S4x1024x512.size 1)`, which is `Fin 1024` only after unfolding the shape
set_option backward.isDefEq.respectTransparency.types false in
/-- A reduced index `(b, k)` with position `s` put back on the middle axis is `(b, s, k)`. -/
theorem lift_mid (h : S4x1024x512.Reduces [1] S4x512) (b : Fin 4) (k : Fin 512) (s : Fin 1024) :
    h.lift (ix2 b k) s = ix3 b s k := by
  funext a; apply Fin.ext
  show h.liftVal (ix2 b k) s.val a = _
  unfold Shape.Reduces.liftVal
  match a with
  | ⟨0, _⟩ => rfl
  | ⟨1, _⟩ => rfl
  | ⟨2, _⟩ => rfl

set_option backward.isDefEq.respectTransparency.types false in
/-- A maximum over the middle axis from `-∞`, at `(b, k)`: the fold of `max` over the 1024 positions. -/
theorem maxRed (src : FVec Ideal S4x1024x512 .f32) (h : S4x1024x512.Reduces [1] S4x512) (hφ : FKind.Formats .f32)
    (hacc : (0xFF800000#32 : BitVec 32) = FKind.maximumf.neutral .f32 hφ) (b : Fin 4) (k : Fin 512) :
    multiReduction .maximumf [1] S4x512 src 0xFF800000#32 h hφ hacc (ix2 b k)
      = (Finset.univ : Finset (Fin 1024)).fold max Cert.Spec.negInf (fun s => src (ix3 b s k)) := by
  refine (Ideal.multiReduction_maximumf_single src 0xFF800000#32 h hφ hacc (ix2 b k)).trans ?_
  show (Finset.univ : Finset (Fin 1024)).fold max Cert.Spec.negInf _ = _
  refine congrArg (fun f => (Finset.univ : Finset (Fin 1024)).fold max Cert.Spec.negInf f) (funext fun s => ?_)
  show src (h.lift (ix2 b k) s) = src (ix3 b s k)
  rw [lift_mid]

set_option backward.isDefEq.respectTransparency.types false in
/-- A sum over the middle axis, at `(b, k)`: the sum over the 1024 positions. -/
theorem addRed (src : FVec Ideal S4x1024x512 .f32) (h : S4x1024x512.Reduces [1] S4x512) (hφ : FKind.Formats .f32)
    (hacc : (0x00000000#32 : BitVec 32) = FKind.add.neutral .f32 hφ) (b : Fin 4) (k : Fin 512) :
    multiReduction .add [1] S4x512 src 0x00000000#32 h hφ hacc (ix2 b k) = ∑ s : Fin 1024, src (ix3 b s k) := by
  refine (Ideal.multiReduction_add_single src 0x00000000#32 h hφ hacc (ix2 b k)).trans ?_
  show ∑ s : Fin 1024, src (h.lift (ix2 b k) s) = _
  refine Finset.sum_congr rfl fun s _ => ?_
  rw [lift_mid]

theorem maxV_apply (x0 : FVec Ideal S4x1024x512 .f32) (b : Fin 4) (k : Fin 512) :
    maxV x0 (ix2 b k) = (Finset.univ : Finset (Fin 1024)).fold max Cert.Spec.negInf (fun s => x0 (ix3 b s k)) := by
  unfold maxV
  rw [shapeCast_self]
  exact maxRed x0 _ _ _ b k

theorem avgV_apply (x0 : FVec Ideal S4x1024x512 .f32) (b : Fin 4) (k : Fin 512) :
    avgV x0 (ix2 b k) = (∑ s : Fin 1024, x0 (ix3 b s k)) * Cert.Spec.invHW := by
  unfold avgV
  rw [shapeCast_self]
  refine (mulf_apply _ _ _).trans (congrArg₂ (· * ·) ?_ rfl)
  exact addRed x0 _ _ _ b k

theorem stackV_upper (x0 : FVec Ideal S4x1024x512 .f32) (b : Fin 4) (k : Fin 512) :
    stackV x0 (ix2 (rowU b) k) = maxV x0 (ix2 b k) := by
  unfold stackV
  refine concatenate_pair_apply_left (t := S8x512) (s₁ := S4x512) (s₂ := S4x512) (0 : Fin 2) (maxV x0) (avgV x0) concatenates_S4x512_S4x512_S8x512_d0 (ix2 (rowU b) k) rfl (ix2 b k) fun a => ?_
  match a with
  | ⟨0, _⟩ => rfl
  | ⟨1, _⟩ => rfl

theorem stackV_lower (x0 : FVec Ideal S4x1024x512 .f32) (b : Fin 4) (k : Fin 512) :
    stackV x0 (ix2 (rowL b) k) = avgV x0 (ix2 b k) := by
  unfold stackV
  refine concatenate_pair_apply_right (t := S8x512) (s₁ := S4x512) (s₂ := S4x512) (0 : Fin 2) (maxV x0) (avgV x0) concatenates_S4x512_S4x512_S8x512_d0 (ix2 (rowL b) k) rfl rfl (ix2 b k) (fun a ha => ?_) ?_
  · match a, ha with
    | ⟨0, _⟩, ha => exact absurd rfl ha
    | ⟨1, _⟩, _ => rfl
  · show b.val + 4 = 4 + b.val
    omega

abbrev dot1 := dot_S8x512_S32x512_S8x32_1_1_0_0_n_n
abbrev dot2 := dot_S4x32_S32x512_S4x512_1_0_0_1_n_n

theorem lhs1_0 (i : S8x32.Idx) (q : dot1.contr.Idx) : (dot1.lhsIdx i q 0).val = (i 0).val := by
  unfold DotDims.lhsIdx
  rw [dif_neg (show ¬(0 : Fin S8x512.rank) ∈ dot1.lhsBatch by decide), dif_pos (show (0 : Fin S8x512.rank) ∈ dot1.lhsNonContracting by decide)]
  rfl
theorem lhs1_1 (i : S8x32.Idx) (q : dot1.contr.Idx) : (dot1.lhsIdx i q 1).val = (q ⟨0, by decide⟩).val :=
  dot1.lhsIdx_val_of_single rfl i q
theorem rhs1_0 (i : S8x32.Idx) (q : dot1.contr.Idx) : (dot1.rhsIdx i q 0).val = (i 1).val := by
  unfold DotDims.rhsIdx
  rw [dif_neg (show ¬(0 : Fin S32x512.rank) ∈ dot1.rhsBatch by decide), dif_pos (show (0 : Fin S32x512.rank) ∈ dot1.rhsNonContracting by decide)]
  rfl
theorem rhs1_1 (i : S8x32.Idx) (q : dot1.contr.Idx) : (dot1.rhsIdx i q 1).val = (q ⟨0, by decide⟩).val :=
  dot1.rhsIdx_val_of_single rfl i q

theorem lhs2_0 (i : S4x512.Idx) (q : dot2.contr.Idx) : (dot2.lhsIdx i q 0).val = (i 0).val := by
  unfold DotDims.lhsIdx
  rw [dif_neg (show ¬(0 : Fin S4x32.rank) ∈ dot2.lhsBatch by decide), dif_pos (show (0 : Fin S4x32.rank) ∈ dot2.lhsNonContracting by decide)]
  rfl
theorem lhs2_1 (i : S4x512.Idx) (q : dot2.contr.Idx) : (dot2.lhsIdx i q 1).val = (q ⟨0, by decide⟩).val :=
  dot2.lhsIdx_val_of_single rfl i q
theorem rhs2_0 (i : S4x512.Idx) (q : dot2.contr.Idx) : (dot2.rhsIdx i q 0).val = (q ⟨0, by decide⟩).val :=
  dot2.rhsIdx_val_of_single rfl i q
theorem rhs2_1 (i : S4x512.Idx) (q : dot2.contr.Idx) : (dot2.rhsIdx i q 1).val = (i 1).val := by
  unfold DotDims.rhsIdx
  rw [dif_neg (show ¬(1 : Fin S32x512.rank) ∈ dot2.rhsBatch by decide), dif_pos (show (1 : Fin S32x512.rank) ∈ dot2.rhsNonContracting by decide)]
  rfl

/-- A `[32, 1, 512]` block re-laid as `[32, 512]`, at `(j, k)`. -/
theorem flat_apply (x : FVec Ideal S32x1x512 .f32) (j : Fin 32) (k : Fin 512) :
    (shapeCast S32x512 x shapeCasts_S32x1x512_S32x512 : FVec Ideal S32x512 .f32) (ix2 j k) = x (ix3 j 0 k) := by
  refine shapeCast_apply x _ (ix2 j k) (ix3 j 0 k) ?_
  rw [Shape.rowMajor_val_three, Shape.rowMajor_val_two]
  show (j.val * 1 + 0) * 512 + k.val = j.val * 512 + k.val
  omega

theorem hidV_apply (x0 : FVec Ideal S4x1024x512 .f32) (x1 : FVec Ideal S32x1x512 .f32) (r : Fin 8) (j : Fin 32) :
    hidV x0 x1 (ix2 r j) = max (∑ k : Fin 512, stackV x0 (ix2 r k) * x1 (ix3 j 0 k)) 0 := by
  unfold hidV
  refine (maximumf_apply _ _ _).trans (congrArg₂ max ?_ Ideal.ofBits_zero_f32)
  refine (Ideal.matmul_constant_zero_apply dot1 none _ _ (ix2 r j)).trans ?_
  rw [← Equiv.sum_comp (contrEquiv1 dot1 512 rfl rfl).symm]
  refine Finset.sum_congr rfl fun k _ => ?_
  have hk := contrEquiv1_symm_val dot1 512 rfl rfl k
  have el : dot1.lhsIdx (ix2 r j) ((contrEquiv1 dot1 512 rfl rfl).symm k) = ix2 r k := funext fun a => Fin.ext (by
    match a with
    | ⟨0, _⟩ => exact lhs1_0 _ _
    | ⟨1, _⟩ => exact (lhs1_1 _ _).trans hk)
  have er : dot1.rhsIdx (ix2 r j) ((contrEquiv1 dot1 512 rfl rfl).symm k) = ix2 j k := funext fun a => Fin.ext (by
    match a with
    | ⟨0, _⟩ => exact rhs1_0 _ _
    | ⟨1, _⟩ => exact (rhs1_1 _ _).trans hk)
  rw [el, er, flat_apply]

theorem sumV_apply (x0 : FVec Ideal S4x1024x512 .f32) (x1 : FVec Ideal S32x1x512 .f32) (b : Fin 4) (j : Fin 32) :
    sumV x0 x1 (ix2 b j) = hidV x0 x1 (ix2 (rowU b) j) + hidV x0 x1 (ix2 (rowL b) j) := by
  unfold sumV
  refine (addf_apply _ _ _).trans (congrArg₂ (· + ·) ?_ ?_)
  · refine extractStridedSlice_apply _ _ _ (ix2 b j) (ix2 (rowU b) j) fun a => ?_
    match a with
    | ⟨0, _⟩ => show b.val = 0 + b.val; omega
    | ⟨1, _⟩ => show j.val = 0 + j.val; omega
  · refine extractStridedSlice_apply _ _ _ (ix2 b j) (ix2 (rowL b) j) fun a => ?_
    match a with
    | ⟨0, _⟩ => rfl
    | ⟨1, _⟩ => show j.val = 0 + j.val; omega

theorem preV_apply (x0 : FVec Ideal S4x1024x512 .f32) (x1 x2 : FVec Ideal S32x1x512 .f32) (b : Fin 4) (c : Fin 512) :
    preV x0 x1 x2 (ix2 b c) = ∑ j : Fin 32, sumV x0 x1 (ix2 b j) * x2 (ix3 j 0 c) := by
  unfold preV
  refine (Ideal.matmul_constant_zero_apply dot2 none _ _ (ix2 b c)).trans ?_
  rw [← Equiv.sum_comp (contrEquiv1 dot2 32 rfl rfl).symm]
  refine Finset.sum_congr rfl fun j _ => ?_
  have hk := contrEquiv1_symm_val dot2 32 rfl rfl j
  have el : dot2.lhsIdx (ix2 b c) ((contrEquiv1 dot2 32 rfl rfl).symm j) = ix2 b j := funext fun a => Fin.ext (by
    match a with
    | ⟨0, _⟩ => exact lhs2_0 _ _
    | ⟨1, _⟩ => exact (lhs2_1 _ _).trans hk)
  have er : dot2.rhsIdx (ix2 b c) ((contrEquiv1 dot2 32 rfl rfl).symm j) = ix2 j c := funext fun a => Fin.ext (by
    match a with
    | ⟨0, _⟩ => exact (rhs2_0 _ _).trans hk
    | ⟨1, _⟩ => exact rhs2_1 _ _)
  rw [el, er, flat_apply]

/-! ## The stored value at an index -/

/-- The maximum over the positions of row `b`, channel `k`, of a loaded `[4, 1024, 512]` block, from `-∞`. -/
def poolMax (x0 : FVec Ideal S4x1024x512 .f32) (b : Fin 4) (k : Fin 512) : EReal :=
  (Finset.univ : Finset (Fin 1024)).fold max Cert.Spec.negInf (fun s => x0 (ix3 b s k))
/-- The sum over the positions of row `b`, channel `k`, times `2⁻¹⁰`. -/
def poolAvg (x0 : FVec Ideal S4x1024x512 .f32) (b : Fin 4) (k : Fin 512) : EReal :=
  (∑ s : Fin 1024, x0 (ix3 b s k)) * Cert.Spec.invHW

/-- THE STORED VALUE at `(b, 0, c)`: the logistic function of the sum over the 32 hidden units `j` of (the hidden unit of
    the pooled maxima plus the hidden unit of the pooled means) times the second weights' entry `(j, 0, c)`, a hidden
    unit being the maximum with zero of the sum over the 512 channels of the pooled value times the first weights'
    entry `(j, 0, k)`. -/
theorem pay_apply (x0 : FVec Ideal S4x1024x512 .f32) (x1 x2 : FVec Ideal S32x1x512 .f32) (b : Fin 4) (c : Fin 512) :
    k0_pay1 (F := Ideal) x0 x1 x2 (ix3 b 0 c)
      = Ideal.logistic (∑ j : Fin 32,
          (max (∑ k : Fin 512, poolMax x0 b k * x1 (ix3 j 0 k)) 0 + max (∑ k : Fin 512, poolAvg x0 b k * x1 (ix3 j 0 k)) 0)
            * x2 (ix3 j 0 c)) := by
  rw [pay_eq]
  refine (shapeCast_apply (logistic (preV x0 x1 x2)) shapeCasts_S4x512_S4x1x512 (ix3 b 0 c) (ix2 b c) ?_).trans ?_
  · rw [Shape.rowMajor_val_three, Shape.rowMajor_val_two]
    show b.val * 512 + c.val = (b.val * 1 + 0) * 512 + c.val
    omega
  show Ideal.logistic (preV x0 x1 x2 (ix2 b c)) = _
  refine congrArg Ideal.logistic ?_
  rw [preV_apply]
  refine Finset.sum_congr rfl fun j _ => ?_
  rw [sumV_apply, hidV_apply, hidV_apply]
  refine congrArg₂ (· * ·) (congrArg₂ (· + ·) (congrArg₂ max (Finset.sum_congr rfl fun k _ => ?_) rfl) (congrArg₂ max (Finset.sum_congr rfl fun k _ => ?_) rfl)) rfl
  · rw [stackV_upper, maxV_apply]; rfl
  · rw [stackV_lower, avgV_apply]; rfl

end Cert.KernelIdeal.KPay
end
-- ==== Proof.KBlocks.lean ====
/-
  From the blocks the grid points write back to the whole result array of the kernel's region.

  The grid has 8 points. Point `t` stages block `t` of the first staged array (batches `4t … 4t + 3`, all positions and
  channels) and the two weight arrays whole, and writes back block `t` of the result array `[32, 1, 512]` (batches
  `4t … 4t + 3`). With the loaded blocks read off the staged arrays (`iblk0_apply` … `iblk2_apply`) and those read off the
  argument arrays (the host-side module), the body's stored value at block-local `(b, 0, cc)` is the attention of batch
  `4t + b` and channel `cc` (`blk_val`); so point `t` writes back block `t` of the one function `G` (`flushed_eq`), the
  eight blocks cover the array (row `r` lies in point `r / 4`'s block, `cover`), and the array ends at `G` (`final`).
-/
import proofs.«103996_g2000006314751908_pallasbulk_691_21_alg».proof.Proof.Gen.KernelIdeal.Frame
import proofs.«103996_g2000006314751908_pallasbulk_691_21_alg».proof.Proof.KPay
import proofs.«103996_g2000006314751908_pallasbulk_691_21_alg».proof.Proof.KHost
import Idealize.ShloMosaic.Lib.Pipeline.Value

noncomputable section
namespace Cert.KernelIdeal.KBlocks
open Idealize.ShloMosaic Idealize.ShloMosaic.ValueIdx Idealize.ShloMosaic.TcCoe Idealize.SL.Sem
open Idealize.ShloMosaic.Pipeline (Dat)
open Cert.KernelIdeal Cert.KernelIdeal.Gen

variable (m : (ℓ : Loc nD τ sig) → Buf (Elt Ideal) ℓ)

theorem hz3 : (![0, 0, 0] : Fin 3 → Nat) = fun _ => 0 := funext fun a => by fin_cases a <;> rfl

/-- What the result window's array ends holding: at `(B, 0, cc)` the attention of batch `B` and channel `cc`. -/
def G (c : Dev nD) : S32x1x512.Idx → EReal := fun i =>
  Cert.Spec.kOutAt (m ((c : Thread nD τ).loc main_arg0)) (m ((c : Thread nD τ).loc main_arg1)) (m ((c : Thread nD τ).loc main_arg2)) (i 0) (i 2)

/-- The printed index maps, decided over the 8 grid points: the input block and the result block of point `t` are block
    `t` along the batch axis; the two weight arrays are staged whole. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = 0 ∧ win0_1.index t (1 : Fin 3) = 0 ∧ win0_1.index t (2 : Fin 3) = 0
    ∧ win0_2.index t (0 : Fin 3) = 0 ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0 :=
  (by decide +kernel : ∀ t : Fin grid0.N, _)

/-! ## The input blocks at a point, read off the staged arrays -/

/-- Entry `(b, s, k)` of point `t`'s block of the first staged array is the array's entry `(4t + b, s, k)`. -/
theorem iblk0_apply (c : Dev nD) (t : Fin cfg0.N) (b : Fin 4) (s : Fin 1024) (k : Fin 512) (B : Fin 32) (hB : B.val = 4 * t.val + b.val) :
    (iblk m c 0 t : S4x1024x512.Idx → EReal) (ix3 b s k) = (V m c main_call0_v1 : S32x1024x512.Idx → EReal) (ix3 B s k) := by
  obtain ⟨e0, e1, e2, -⟩ := idx_facts t
  show (V m c main_call0_v1 : S32x1024x512.Idx → EReal) (((cfg0.win 0).blk t).view.emb (ix3 b s k)) = _
  refine congrArg _ (funext fun a => Fin.ext ?_)
  match a with
  | ⟨0, _⟩ => show win0_0.index t (0 : Fin 3) * 4 + 1 * b.val = B.val; omega
  | ⟨1, _⟩ => show win0_0.index t (1 : Fin 3) * 1024 + 1 * s.val = s.val; omega
  | ⟨2, _⟩ => show win0_0.index t (2 : Fin 3) * 512 + 1 * k.val = k.val; omega

/-- Point `t`'s block of the second staged array is the whole array. -/
theorem iblk1_apply (c : Dev nD) (t : Fin cfg0.N) (j : Fin 32) (k : Fin 512) :
    (iblk m c 1 t : S32x1x512.Idx → EReal) (ix3 j 0 k) = (V m c main_call0_v2 : S32x1x512.Idx → EReal) (ix3 j 0 k) := by
  obtain ⟨-, -, -, e0, e1, e2, -⟩ := idx_facts t
  show (V m c main_call0_v2 : S32x1x512.Idx → EReal) (((cfg0.win 1).blk t).view.emb (ix3 j 0 k)) = _
  refine congrArg _ (funext fun a => Fin.ext ?_)
  match a with
  | ⟨0, _⟩ => show win0_1.index t (0 : Fin 3) * 32 + 1 * j.val = j.val; omega
  | ⟨1, _⟩ => show win0_1.index t (1 : Fin 3) * 1 + 1 * 0 = 0; omega
  | ⟨2, _⟩ => show win0_1.index t (2 : Fin 3) * 512 + 1 * k.val = k.val; omega

/-- Point `t`'s block of the third staged array is the whole array. -/
theorem iblk2_apply (c : Dev nD) (t : Fin cfg0.N) (j : Fin 32) (k : Fin 512) :
    (iblk m c 2 t : S32x1x512.Idx → EReal) (ix3 j 0 k) = (V m c main_call0_v4 : S32x1x512.Idx → EReal) (ix3 j 0 k) := by
  obtain ⟨-, -, -, -, -, -, e0, e1, e2, -⟩ := idx_facts t
  show (V m c main_call0_v4 : S32x1x512.Idx → EReal) (((cfg0.win 2).blk t).view.emb (ix3 j 0 k)) = _
  refine congrArg _ (funext fun a => Fin.ext ?_)
  match a with
  | ⟨0, _⟩ => show win0_2.index t (0 : Fin 3) * 32 + 1 * j.val = j.val; omega
  | ⟨1, _⟩ => show win0_2.index t (1 : Fin 3) * 1 + 1 * 0 = 0; omega
  | ⟨2, _⟩ => show win0_2.index t (2 : Fin 3) * 512 + 1 * k.val = k.val; omega

/-! ## What a point stores -/

/-- THE STORED VALUE of point `t` at block-local `(b, 0, cc)` is the attention of batch `4t + b` and channel `cc`: the
    pooled values of the loaded block are the pooled values of the input's batch `4t + b`, and the two loaded weight
    blocks are the weights. -/
theorem blk_val (c : Dev nD) (t : Fin cfg0.N) (b : Fin 4) (cc : Fin 512) (B : Fin 32) (hB : B.val = 4 * t.val + b.val) :
    k0_pay1 (F := Ideal) (iblk m c 0 t) (iblk m c 1 t) (iblk m c 2 t) (ix3 b 0 cc)
      = Cert.Spec.kOutAt (m ((c : Thread nD τ).loc main_arg0)) (m ((c : Thread nD τ).loc main_arg1)) (m ((c : Thread nD τ).loc main_arg2)) B cc := by
  refine (KPay.pay_apply (iblk m c 0 t) (iblk m c 1 t) (iblk m c 2 t) b cc).trans ?_
  have h0 : ∀ (s : Fin 1024) (k : Fin 512), (iblk m c 0 t : S4x1024x512.Idx → EReal) (ix3 b s k)
      = (m ((c : Thread nD τ).loc main_arg0) : Cert.Spec.SX.Idx → EReal) (ix4 B k (Cert.Spec.hi s) (Cert.Spec.lo s)) :=
    fun s k => (iblk0_apply m c t b s k B hB).trans (KHost.V_v1_apply m c B s k)
  have h1 : ∀ (j : Fin 32) (k : Fin 512), (iblk m c 1 t : S32x1x512.Idx → EReal) (ix3 j 0 k)
      = (m ((c : Thread nD τ).loc main_arg1) : Cert.Spec.SW1.Idx → EReal) (ix4 j k 0 0) :=
    fun j k => (iblk1_apply m c t j k).trans (KHost.V_v2_apply m c j k)
  have h2 : ∀ (j : Fin 32) (k : Fin 512), (iblk m c 2 t : S32x1x512.Idx → EReal) (ix3 j 0 k)
      = (m ((c : Thread nD τ).loc main_arg2) : Cert.Spec.SW2.Idx → EReal) (ix4 k j 0 0) :=
    fun j k => (iblk2_apply m c t j k).trans (KHost.V_v4_apply m c j k)
  unfold Cert.Spec.kOutAt Cert.Spec.hid
  refine congrArg Ideal.logistic (Finset.sum_congr rfl fun j _ => ?_)
  refine congrArg₂ (· * ·) (congrArg₂ (· + ·)
    (congrArg₂ max (Finset.sum_congr rfl fun k _ => congrArg₂ (· * ·) ?_ (h1 j k)) rfl)
    (congrArg₂ max (Finset.sum_congr rfl fun k _ => congrArg₂ (· * ·) ?_ (h1 j k)) rfl)) (h2 j cc)
  · unfold KPay.poolMax Cert.Spec.pmax
    exact congrArg (fun f => (Finset.univ : Finset (Fin 1024)).fold max Cert.Spec.negInf f) (funext fun s => h0 s k)
  · unfold KPay.poolAvg Cert.Spec.pavg
    exact congrArg (· * Cert.Spec.invHW) (Finset.sum_congr rfl fun s _ => h0 s k)

/-! ## From blocks to the array -/

/-- WHAT POINT `t` WRITES BACK is block `t` of `G`. -/
theorem flushed_eq (c : Dev nD) (t : Fin cfg0.N) :
    (dats m 0 c).flushed 3 t = ((cfg0.win 3).blk t).view.read (Elt Ideal) (G m c) := by
  show (cfg0.win 3).cut (grid0.coords t) ((dats m 0 c).after 3 t) = _
  rw [after0_3]
  unfold out0_3
  rw [View.canon_unit_zero hz3]
  simp only [View.ld_unit_zero (S := S4x1024x512) hz3, View.ld_unit_zero (S := S32x1x512) hz3]
  obtain ⟨-, -, -, -, -, -, -, -, -, e0, e1, e2⟩ := idx_facts t
  funext j
  have hj0 : (j 0).val < 4 := (j 0).isLt
  have hj1 : (j 1).val < 1 := (j 1).isLt
  have hj2 : (j 2).val < 512 := (j 2).isLt
  have hj : (j : S4x1x512.Idx) = ix3 (⟨(j 0).val, hj0⟩ : Fin 4) 0 (⟨(j 2).val, hj2⟩ : Fin 512) := by
    funext a; apply Fin.ext
    match a with
    | ⟨0, _⟩ => rfl
    | ⟨1, _⟩ => show (j 1).val = 0; omega
    | ⟨2, _⟩ => rfl
  have hB : ((((cfg0.win 3).blk t).view.emb j) 0).val = 4 * t.val + (j 0).val := by
    show win0_3.index t (0 : Fin 3) * 4 + 1 * (j 0).val = _; omega
  have hC : (((cfg0.win 3).blk t).view.emb j) 2 = (⟨(j 2).val, hj2⟩ : Fin 512) :=
    Fin.ext (by show win0_3.index t (2 : Fin 3) * 512 + 1 * (j 2).val = (j 2).val; omega)
  show k0_pay1 (F := Ideal) (iblk m c 0 t) (iblk m c 1 t) (iblk m c 2 t) j
    = Cert.Spec.kOutAt (m ((c : Thread nD τ).loc main_arg0)) (m ((c : Thread nD τ).loc main_arg1)) (m ((c : Thread nD τ).loc main_arg2))
        ((((cfg0.win 3).blk t).view.emb j) 0) ((((cfg0.win 3).blk t).view.emb j) 2)
  rw [hC]
  exact (congrArg (k0_pay1 (F := Ideal) (iblk m c 0 t) (iblk m c 1 t) (iblk m c 2 t)) hj).trans
    (blk_val m c t ⟨(j 0).val, hj0⟩ ⟨(j 2).val, hj2⟩ _ hB)

/-- An index of the result array is in point `t`'s block iff each coordinate is in the block's range on its axis. -/
theorem mem_blk (t : Fin cfg0.N) (i : S32x1x512.Idx) :
    i ∈ ((cfg0.win 3).blk t).view.set ↔ ∀ a : Fin 3, win0_3.index t a * S4x1x512.size a ≤ (i a).val ∧ (i a).val < win0_3.index t a * S4x1x512.size a + S4x1x512.size a := by
  show i ∈ ((View.whole main_call0_v5).slice (win0_3.rect t)).set ↔ _
  rw [View.set_slice_whole, Rect.mem_set_unit]
  exact Iff.rfl

/-- Every index of the result array is in the block of the point its batch row falls in: row `r` is point `r / 4`'s. -/
theorem cover (i : S32x1x512.Idx) : ∃ t : Fin cfg0.N, (cfg0.win 3).flush t = true ∧ i ∈ ((cfg0.win 3).blk t).view.set := by
  have hN : cfg0.N = 8 := N_0
  have hi0 : (i 0).val < 32 := (i 0).isLt
  have hi1 : (i 1).val < 1 := (i 1).isLt
  have hi2 : (i 2).val < 512 := (i 2).isLt
  have ht : (i 0).val / 4 < cfg0.N := by rw [hN]; omega
  obtain ⟨-, -, -, -, -, -, -, -, -, e0, e1, e2⟩ := idx_facts ⟨(i 0).val / 4, ht⟩
  refine ⟨⟨(i 0).val / 4, ht⟩, flush0_3 _, ?_⟩
  rw [mem_blk]
  intro a
  match a with
  | ⟨0, _⟩ =>
    show win0_3.index ⟨(i 0).val / 4, ht⟩ (0 : Fin 3) * 4 ≤ (i 0).val ∧ (i 0).val < win0_3.index ⟨(i 0).val / 4, ht⟩ (0 : Fin 3) * 4 + 4
    rw [e0]; show (i 0).val / 4 * 4 ≤ (i 0).val ∧ (i 0).val < (i 0).val / 4 * 4 + 4; omega
  | ⟨1, _⟩ =>
    show win0_3.index ⟨(i 0).val / 4, ht⟩ (1 : Fin 3) * 1 ≤ (i 1).val ∧ (i 1).val < win0_3.index ⟨(i 0).val / 4, ht⟩ (1 : Fin 3) * 1 + 1
    omega
  | ⟨2, _⟩ =>
    show win0_3.index ⟨(i 0).val / 4, ht⟩ (2 : Fin 3) * 512 ≤ (i 2).val ∧ (i 2).val < win0_3.index ⟨(i 0).val / 4, ht⟩ (2 : Fin 3) * 512 + 512
    omega

/-- THE RESULT ARRAY after the region is `G`. -/
theorem final (c : Dev nD) : (dats m 0 c).arrAt 3 cfg0.N = G m c :=
  (dats m 0 c).arrAt_eq_of_cover 3 (G m c) (fun t _ => flushed_eq m c t) cover

end Cert.KernelIdeal.KBlocks
end
-- ==== Proof.KRun.lean ====
/-
  The value of the idealized kernel program: every weakly fair run of its @main ends with the result buffer holding
  the attention map `Cert.Spec.kernelOut` of the three argument arrays, the arguments unchanged.

  The program's run ends with every array of the region at what the grid points' write-backs leave and every other
  unscoped buffer as the host operation after the region leaves it. That operation re-lays the region's result array
  `[32, 1, 512]` — which is `G`, entry `(B, 0, cc)` the attention of batch `B` and channel `cc` (the blocks module) — to
  `[32, 512, 1, 1]`: entry `(i₀, i₁, 0, 0)` is `G (i₀, 0, i₁)` (`tail_v0`). No host operation writes an argument array.
-/
import proofs.«103996_g2000006314751908_pallasbulk_691_21_alg».proof.Defs
import proofs.«103996_g2000006314751908_pallasbulk_691_21_alg».proof.Proof.Gen.KernelIdeal.Frame
import proofs.«103996_g2000006314751908_pallasbulk_691_21_alg».proof.Proof.Spec
import proofs.«103996_g2000006314751908_pallasbulk_691_21_alg».proof.Proof.KHost
import proofs.«103996_g2000006314751908_pallasbulk_691_21_alg».proof.Proof.KBlocks
import Idealize.ShloMosaic.Lib.Pipeline.Value

noncomputable section
namespace Cert.KernelIdeal.KRun
open Idealize.ShloMosaic Idealize.ShloMosaic.TcCoe Idealize.SL.Sem Cert.KernelIdeal
open Idealize.ShloMosaic.ValueIdx Cert.KernelIdeal.Gen

/-- The result buffer after the host operation that follows the region: the region's result array re-laid from
    `[32, 1, 512]` to `[32, 512, 1, 1]`, which is the attention map of the argument arrays. -/
theorem tail_v0 (m : (ℓ : Loc nD τ sig) → Buf (Elt Ideal) ℓ) (c : Dev nD) :
    (Pipeline.afterTail₀ cfgs (dats m) 0 (V0 m) [hostOps1] c main_v0 : S32x512x1x1.Idx → EReal)
      = Cert.Spec.kernelOut (m ((c.tc : Thread nD τ).loc main_arg0)) (m ((c.tc : Thread nD τ).loc main_arg1)) (m ((c.tc : Thread nD τ).loc main_arg2)) := by
  unfold Pipeline.afterTail₀
  show StableHlo.after hostOps1 _ (Proc.devRef .tc main_v0) = _
  after_results
  have e : Pipeline.withArrays (cfgs 0).spec c (V0 m c) (fun w => (dats m 0 c).arrAt w (cfgs 0).N) (Proc.devRef .tc main_call0_v5) = KBlocks.G m c :=
    (Pipeline.withArrays_arr spec0 launch0.win.arr_inj c _ _ 3).trans (KBlocks.final m c)
  funext i
  show shapeCast S32x512x1x1 (Pipeline.withArrays (cfgs 0).spec c (V0 m c) (fun w => (dats m 0 c).arrAt w (cfgs 0).N) (Proc.devRef .tc main_call0_v5)) shapeCasts_S32x1x512_S32x512x1x1 i = _
  rw [e, KHost.tail_apply]
  rfl

theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v0)
          = Cert.Spec.kernelOut (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run (defs (F := Ideal)) _ _).mono (fun _ h c =>
    ⟨((h c).2 main_v0 (Pipeline.mem_restRefs_of main_v0 (by decide) (by decide))).trans (tail_v0 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.KRun
end
-- ==== Proof.RRun.lean ====
/-
  The second program's run with its result named: every weakly fair execution of @main ends with the result buffer at
  the contents the last host stretch leaves (`Gen.W5`), the fold of the five segments — reshape, pooling region, the
  host operations that stack and pad, the two-layer region, reshape — over the launch memory, and the arguments as launched.
-/
import proofs.«103996_g2000006314751908_pallasbulk_691_21_alg».proof.Defs
import proofs.«103996_g2000006314751908_pallasbulk_691_21_alg».proof.Proof.Gen.ReferenceIdeal.Frame

set_option maxRecDepth 16384

noncomputable section

namespace Cert.ReferenceIdeal.RRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run over the five segments, read at the result buffer as well as at the arguments: the final state agrees with the
    last boundary's contents on every unscoped buffer, the result's among them. -/
theorem run_named : θ_run defs (onTc (τ := τ) (main (F := F))) ⟨m, fun _ => 0, ρ⟩ (fun r => ∀ c : Dev nD,
      r.2.mem ((c.tc : Thread nD τ).loc main_v0) = W5 m ρ c (Proc.devRef .tc main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v0 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c)⟩)

end Cert.ReferenceIdeal.RRun

end
-- ==== Proof.LibScatter.lean ====
/-
  `stablehlo.scatter` read at one result index, without evaluating its fold.

  `Host.scatter d f x idx upd` is the left fold, over the update indices in row-major order, of the step that
  replaces the element at `d.resultIdx? j idx` (when update index `j` lands inside the operand) by `f` of that
  element and `upd j`. Two facts read the fold at a result index `i`:

  * no update index lands at `i`: the result there is the operand's element `x i`
    (`scatter_apply_of_not_reached`);
  * update index `j` lands at `i` and is the only one that does: the result there is `f (x i) (upd j)`
    (`scatter_apply_of_reached`; for the body that returns the update this is `upd j`).

  Both are inductions on the list of update positions with the accumulator generalized; the second uses that the
  list `List.finRange u.numel` has no repeats. Then `d.resultIdx? j idx = some i` is characterised by the integer
  equations `start + window = i a` on every operand axis (`resultIdx?_eq_some_iff`), and `start` / `window` are
  computed on an axis from membership in the dimension lists (`start_of_const`, `window_of_not_mem`).

  Last, the rank-2 case with both update axes window axes: when update index `(a, b)` lands at `(o0 + a, o1 + b)`
  (`lands2_iff` derives this from the starts and window coordinates), the scatter read at `(r, c)` is the body
  applied to the operand's element and the update's element `(r - o0, c - o1)` inside the written rectangle and the
  operand's element outside it (`scatter2_apply`).
-/
import Idealize.ShloMosaic.PureOps.Ideal
import Idealize.ShloMosaic.Lib.ValueIdx

namespace Idealize.ShloMosaic.LibScatter

open Idealize.ShloMosaic Idealize.ShloMosaic.ValueIdx

variable {α : Type} {s si u : Shape} {w : Nat}

/-- One step of the scatter's fold, at the update index in row-major position `n`: the element where that update
    index lands, if it lands inside the operand, is replaced by `f` of it and the update's element. -/
def step (d : ScatterDims s si u) (f : α → α → α) (idx : IVec si w) (upd : u.Idx → α) (r : s.Idx → α)
    (n : Fin u.numel) : s.Idx → α :=
  match d.resultIdx? (u.rowMajor.symm n) idx with
  | some i => fun i' => if i' = i then f (r i) (upd (u.rowMajor.symm n)) else r i'
  | none => r

/-- The scatter is the left fold of `step` over the row-major positions of the update. -/
theorem scatter_eq_foldl (d : ScatterDims s si u) (f : α → α → α) (x : s.Idx → α) (idx : IVec si w) (upd : u.Idx → α) :
    Host.scatter d f x idx upd = (List.finRange u.numel).foldl (step d f idx upd) x := rfl

/-- A step whose update index lands at `i₀` changes the element at `i₀` and no other. -/
theorem step_of_some (d : ScatterDims s si u) (f : α → α → α) (idx : IVec si w) (upd : u.Idx → α) (r : s.Idx → α)
    (n : Fin u.numel) (i₀ : s.Idx) (h : d.resultIdx? (u.rowMajor.symm n) idx = some i₀) (i : s.Idx) :
    step d f idx upd r n i = if i = i₀ then f (r i₀) (upd (u.rowMajor.symm n)) else r i := by
  unfold step
  rw [h]

/-- A step whose update index does not land at `i` leaves the element at `i` as it was. -/
theorem step_apply_of_ne (d : ScatterDims s si u) (f : α → α → α) (idx : IVec si w) (upd : u.Idx → α) (r : s.Idx → α)
    (n : Fin u.numel) (i : s.Idx) (h : d.resultIdx? (u.rowMajor.symm n) idx ≠ some i) :
    step d f idx upd r n i = r i := by
  cases hres : d.resultIdx? (u.rowMajor.symm n) idx with
  | none => unfold step; rw [hres]
  | some i₀ =>
    rw [step_of_some d f idx upd r n i₀ hres i]
    have hne : i ≠ i₀ := fun e => h (by rw [hres, e])
    rw [if_neg hne]

/-- Folding steps none of which lands at `i` leaves the element at `i` as it was. -/
theorem foldl_step_of_not_reached (d : ScatterDims s si u) (f : α → α → α) (idx : IVec si w) (upd : u.Idx → α)
    (i : s.Idx) (l : List (Fin u.numel)) (x : s.Idx → α)
    (h : ∀ n ∈ l, d.resultIdx? (u.rowMajor.symm n) idx ≠ some i) :
    l.foldl (step d f idx upd) x i = x i := by
  induction l generalizing x with
  | nil => rfl
  | cons n t ih =>
    rw [List.foldl_cons, ih (step d f idx upd x n) (fun m hm => h m (List.mem_cons_of_mem _ hm))]
    exact step_apply_of_ne d f idx upd x n i (h n List.mem_cons_self)

/-- Folding steps over a list without repeats in which position `n₀` occurs, `n₀`'s update index lands at `i` and
    no other update index does: the element at `i` ends as `f` of the starting element and `n₀`'s update. -/
theorem foldl_step_of_reached (d : ScatterDims s si u) (f : α → α → α) (idx : IVec si w) (upd : u.Idx → α)
    (i : s.Idx) (n₀ : Fin u.numel) (hi : d.resultIdx? (u.rowMajor.symm n₀) idx = some i)
    (huniq : ∀ j', d.resultIdx? j' idx = some i → j' = u.rowMajor.symm n₀)
    (l : List (Fin u.numel)) (hl : l.Nodup) (hn : n₀ ∈ l) (x : s.Idx → α) :
    l.foldl (step d f idx upd) x i = f (x i) (upd (u.rowMajor.symm n₀)) := by
  have hother : ∀ m, m ≠ n₀ → d.resultIdx? (u.rowMajor.symm m) idx ≠ some i := fun m hm hres =>
    hm (u.rowMajor.symm.injective (huniq _ hres))
  induction l generalizing x with
  | nil => exact absurd hn List.not_mem_nil
  | cons n t ih =>
    rw [List.foldl_cons]
    have hnd := List.nodup_cons.1 hl
    by_cases hnn : n = n₀
    · subst hnn
      rw [foldl_step_of_not_reached d f idx upd i t _ (fun m hm => hother m (fun e => hnd.1 (e ▸ hm))),
        step_of_some d f idx upd x n i hi i, if_pos rfl]
    · have hmem : n₀ ∈ t := by
        rcases List.mem_cons.1 hn with e | e
        · exact absurd e.symm hnn
        · exact e
      rw [ih hnd.2 hmem, step_apply_of_ne d f idx upd x n i (hother n hnn)]

/-- THE SCATTER AT AN INDEX NO UPDATE REACHES: the operand's element. -/
theorem scatter_apply_of_not_reached (d : ScatterDims s si u) (f : α → α → α) (x : s.Idx → α) (idx : IVec si w)
    (upd : u.Idx → α) (i : s.Idx) (h : ∀ j, d.resultIdx? j idx ≠ some i) :
    Host.scatter d f x idx upd i = x i := by
  rw [scatter_eq_foldl]
  exact foldl_step_of_not_reached d f idx upd i _ x (fun n _ => h _)

/-- THE SCATTER AT AN INDEX ONE UPDATE REACHES: update index `j` lands at `i` and is the only one that does; the
    result there is the body `f` applied to the operand's element and `j`'s update. -/
theorem scatter_apply_of_reached (d : ScatterDims s si u) (f : α → α → α) (x : s.Idx → α) (idx : IVec si w)
    (upd : u.Idx → α) (i : s.Idx) (j : u.Idx) (hi : d.resultIdx? j idx = some i)
    (huniq : ∀ j', d.resultIdx? j' idx = some i → j' = j) :
    Host.scatter d f x idx upd i = f (x i) (upd j) := by
  rw [scatter_eq_foldl]
  have hj : u.rowMajor.symm (u.rowMajor j) = j := u.rowMajor.symm_apply_apply j
  have := foldl_step_of_reached d f idx upd i (u.rowMajor j) (by rw [hj]; exact hi)
    (fun j' h' => by rw [hj]; exact huniq j' h') (List.finRange u.numel) (List.nodup_finRange _)
    (List.mem_finRange _) x
  rw [hj] at this
  exact this

/-- The same under the stronger hypothesis that landing is injective on the update indices that land inside. -/
theorem scatter_apply_of_reached_of_injective (d : ScatterDims s si u) (f : α → α → α) (x : s.Idx → α)
    (idx : IVec si w) (upd : u.Idx → α)
    (hinj : ∀ j j' i, d.resultIdx? j idx = some i → d.resultIdx? j' idx = some i → j = j')
    (i : s.Idx) (j : u.Idx) (hi : d.resultIdx? j idx = some i) :
    Host.scatter d f x idx upd i = f (x i) (upd j) :=
  scatter_apply_of_reached d f x idx upd i j hi (fun j' h' => hinj j' j i h' hi)

/-! ## Where an update index lands -/

/-- Update index `j` lands at `i` exactly when, on every operand axis, the window's start plus the window
    coordinate is `i`'s coordinate (as integers). -/
theorem resultIdx?_eq_some_iff (d : ScatterDims s si u) (j : u.Idx) (idx : IVec si w) (i : s.Idx) :
    d.resultIdx? j idx = some i ↔ ∀ a, d.start j idx a + (d.window j a : Int) = ((i a).val : Int) := by
  unfold ScatterDims.resultIdx?
  constructor
  · intro h
    split at h
    · rename_i hin
      have hi := Option.some.inj h
      intro a
      have ha := congrArg (fun i' : s.Idx => (i' a).val) hi
      simp only at ha
      have := (hin a).1
      omega
    · exact absurd h (by simp)
  · intro h
    have hin : ∀ a, 0 ≤ d.start j idx a + (d.window j a : Int) ∧ d.start j idx a + (d.window j a : Int) < s.size a := by
      intro a
      have := (i a).isLt
      rw [h a]
      omega
    rw [dif_pos hin]
    congr 1
    funext a
    refine Fin.ext ?_
    have := h a
    show (d.start j idx a + (d.window j a : Int)).toNat = (i a).val
    omega

/-- At scatter indices that all hold the one word `b`, the window's start is `b` read signed on an axis the
    scatter-dims-to-operand-dims map names, and `0` on the others. -/
theorem start_of_const (d : ScatterDims s si u) (j : u.Idx) (idx : IVec si w) (b : BitVec w) (hidx : ∀ k, idx k = b)
    (a : Fin s.rank) : d.start j idx a = if a ∈ d.scatterDimsToOperandDims then b.toInt else 0 := by
  unfold ScatterDims.start
  by_cases ha : a ∈ d.scatterDimsToOperandDims
  · rw [dif_pos ha, if_pos ha, hidx]
  · rw [dif_neg ha, if_neg ha]

/-- On an inserted window axis the window coordinate is `0`. -/
theorem window_of_not_mem (d : ScatterDims s si u) (j : u.Idx) (a : Fin s.rank) (ha : a ∉ d.sKept) :
    d.window j a = 0 := by
  unfold ScatterDims.window
  rw [dif_neg ha]

/-! ## Rank 2, a rectangle written at an offset -/

/-- Two rank-2 indices with the same coordinates (as naturals) are equal. -/
theorem idx2_ext {n0 n1 : Nat} (j j' : (⟨2, ![n0, n1]⟩ : Shape).Idx) (h0 : (j 0).val = (j' 0).val)
    (h1 : (j 1).val = (j' 1).val) : j = j' := by
  funext a
  match a with
  | ⟨0, _⟩ => exact Fin.ext h0
  | ⟨1, _⟩ => exact Fin.ext h1

/-- A rank-2 operand and a rank-2 update whose window coordinates are the update's own coordinates and whose starts
    are the naturals `o0`, `o1`: update index `(a, b)` lands at `i` exactly when `i = (o0 + a, o1 + b)`. -/
theorem lands2_iff {m0 m1 n0 n1 : Nat} (d : ScatterDims ⟨2, ![m0, m1]⟩ si ⟨2, ![n0, n1]⟩) (idx : IVec si w)
    (o0 o1 : Nat)
    (hs0 : ∀ j, d.start j idx 0 = (o0 : Int)) (hs1 : ∀ j, d.start j idx 1 = (o1 : Int))
    (hw0 : ∀ j, d.window j 0 = (j 0).val) (hw1 : ∀ j, d.window j 1 = (j 1).val)
    (j : (⟨2, ![n0, n1]⟩ : Shape).Idx) (i : (⟨2, ![m0, m1]⟩ : Shape).Idx) :
    d.resultIdx? j idx = some i ↔ (i 0).val = o0 + (j 0).val ∧ (i 1).val = o1 + (j 1).val := by
  rw [resultIdx?_eq_some_iff]
  constructor
  · intro h
    have h0 := h 0
    have h1 := h 1
    rw [hs0, hw0] at h0
    rw [hs1, hw1] at h1
    omega
  · rintro ⟨h0, h1⟩ a
    match a with
    | ⟨0, _⟩ =>
      show d.start j idx 0 + (d.window j 0 : Int) = ((i 0).val : Int)
      rw [hs0, hw0]; omega
    | ⟨1, _⟩ =>
      show d.start j idx 1 + (d.window j 1 : Int) = ((i 1).val : Int)
      rw [hs1, hw1]; omega

/-- A RECTANGLE WRITTEN AT AN OFFSET: a rank-2 scatter whose update index `(a, b)` lands at `(o0 + a, o1 + b)`, read at
    `(r, c)`: inside the rectangle `[o0, o0 + n0) × [o1, o1 + n1)` the body applied to the operand's element and the
    update's element `(r - o0, c - o1)`; outside it the operand's element. -/
theorem scatter2_apply {m0 m1 n0 n1 : Nat} (d : ScatterDims ⟨2, ![m0, m1]⟩ si ⟨2, ![n0, n1]⟩) (f : α → α → α)
    (x : (⟨2, ![m0, m1]⟩ : Shape).Idx → α) (idx : IVec si w) (upd : (⟨2, ![n0, n1]⟩ : Shape).Idx → α) (o0 o1 : Nat)
    (hl : ∀ j i, d.resultIdx? j idx = some i ↔ (i 0).val = o0 + (j 0).val ∧ (i 1).val = o1 + (j 1).val)
    (r : Fin m0) (c : Fin m1) :
    Host.scatter d f x idx upd (ix2 r c)
      = if h : o0 ≤ r.val ∧ r.val < o0 + n0 ∧ o1 ≤ c.val ∧ c.val < o1 + n1 then
          f (x (ix2 r c)) (upd (ix2 ⟨r.val - o0, by omega⟩ ⟨c.val - o1, by omega⟩))
        else x (ix2 r c) := by
  by_cases h : o0 ≤ r.val ∧ r.val < o0 + n0 ∧ o1 ≤ c.val ∧ c.val < o1 + n1
  · rw [dif_pos h]
    refine scatter_apply_of_reached d f x idx upd (ix2 r c) (ix2 ⟨r.val - o0, by omega⟩ ⟨c.val - o1, by omega⟩) ?_ ?_
    · rw [hl]
      show r.val = o0 + (r.val - o0) ∧ c.val = o1 + (c.val - o1)
      omega
    · intro j' hj'
      have hj := (hl j' (ix2 r c)).1 hj'
      have h0 : r.val = o0 + (j' 0).val := hj.1
      have h1 : c.val = o1 + (j' 1).val := hj.2
      refine idx2_ext _ _ ?_ ?_
      · show (j' 0).val = r.val - o0
        omega
      · show (j' 1).val = c.val - o1
        omega
  · rw [dif_neg h]
    refine scatter_apply_of_not_reached d f x idx upd (ix2 r c) (fun j hj => h ?_)
    have hj' := (hl j (ix2 r c)).1 hj
    have h0 : r.val = o0 + (j 0).val := hj'.1
    have h1 : c.val = o1 + (j 1).val := hj'.2
    have := idx2_lt0 j
    have := idx2_lt1 j
    omega

end Idealize.ShloMosaic.LibScatter
-- ==== Proof.RScatter.lean ====
/-
  The four scatters of the second program, read at an index.

  Each is a `stablehlo.scatter` whose body returns the update (`x.at[…].set(u)`), with both update axes window axes,
  no inserted axis and ONE scatter index, the one-element array holding the literal `0` or `32`, naming operand
  axis 0 (rows) or 1 (columns). So update index `(a, b)` lands at `(r0 + a, b)` (rows) or `(a, r0 + b)` (columns),
  always inside the operand, and the result at `(r, c)` is the update's element inside the written rectangle and
  the operand's element outside it: the rectangle-at-an-offset form of the general scatter lemmas, with the starts
  and window coordinates of each record computed from its dimension lists.
-/
import proofs.«103996_g2000006314751908_pallasbulk_691_21_alg».proof.ReferenceIdeal
import proofs.«103996_g2000006314751908_pallasbulk_691_21_alg».proof.Proof.Gen.ReferenceIdeal
import proofs.«103996_g2000006314751908_pallasbulk_691_21_alg».proof.Proof.LibScatter
import Idealize.ShloMosaic.PureOps.Ideal
import Idealize.ShloMosaic.Lib.ValueIdx

noncomputable section
namespace Cert.ReferenceIdeal.RScatter
open Idealize.ShloMosaic Cert.ReferenceIdeal Idealize.ShloMosaic.ValueIdx Cert.ReferenceIdeal.Facts₀
open Idealize.ShloMosaic.LibScatter

/-- The one-element scatter index array reads its word at every index. -/
theorem sidx_apply (r0 : BitVec 32) (k : S1.Idx) : broadcastInDim S1 ![] bcast_S_S1 (constantI S_ 32 r0) k = r0 := rfl

/-- Rows into the 64-row array: with the scatter index `r0 = o`, update index `(a, b)` lands at `(o + a, b)`. -/
theorem rows64_lands (r0 : BitVec 32) (o : Nat) (ho : r0.toInt = (o : Int)) (j : S32x512.Idx) (i : S64x512.Idx) :
    scatter_S64x512_S1_S32x512_01_n_0_0.resultIdx? j (broadcastInDim S1 ![] bcast_S_S1 (constantI S_ 32 r0)) = some i
      ↔ (i 0).val = o + (j 0).val ∧ (i 1).val = 0 + (j 1).val :=
  lands2_iff scatter_S64x512_S1_S32x512_01_n_0_0 _ o 0
    (fun j => ((start_of_const _ j _ r0 (sidx_apply r0) 0).trans (if_pos (by decide))).trans ho)
    (fun j => ((start_of_const _ j _ r0 (sidx_apply r0) 1).trans (if_neg (by decide))).trans Nat.cast_zero.symm)
    (fun _ => rfl) (fun _ => rfl) j i

/-- Columns into the 128-column array: with the scatter index `r0 = o`, update index `(a, b)` lands at `(a, o + b)`. -/
theorem cols128_lands (r0 : BitVec 32) (o : Nat) (ho : r0.toInt = (o : Int)) (j : S512x32.Idx) (i : S512x128.Idx) :
    scatter_S512x128_S1_S512x32_01_n_1_0.resultIdx? j (broadcastInDim S1 ![] bcast_S_S1 (constantI S_ 32 r0)) = some i
      ↔ (i 0).val = 0 + (j 0).val ∧ (i 1).val = o + (j 1).val :=
  lands2_iff scatter_S512x128_S1_S512x32_01_n_1_0 _ 0 o
    (fun j => ((start_of_const _ j _ r0 (sidx_apply r0) 0).trans (if_neg (by decide))).trans Nat.cast_zero.symm)
    (fun j => ((start_of_const _ j _ r0 (sidx_apply r0) 1).trans (if_pos (by decide))).trans ho)
    (fun _ => rfl) (fun _ => rfl) j i

/-- Rows into the 128-row array: with the scatter index `r0 = o`, update index `(a, b)` lands at `(o + a, b)`. -/
theorem rows128_lands (r0 : BitVec 32) (o : Nat) (ho : r0.toInt = (o : Int)) (j : S32x512.Idx) (i : S128x512.Idx) :
    scatter_S128x512_S1_S32x512_01_n_0_0.resultIdx? j (broadcastInDim S1 ![] bcast_S_S1 (constantI S_ 32 r0)) = some i
      ↔ (i 0).val = o + (j 0).val ∧ (i 1).val = 0 + (j 1).val :=
  lands2_iff scatter_S128x512_S1_S32x512_01_n_0_0 _ o 0
    (fun j => ((start_of_const _ j _ r0 (sidx_apply r0) 0).trans (if_pos (by decide))).trans ho)
    (fun j => ((start_of_const _ j _ r0 (sidx_apply r0) 1).trans (if_neg (by decide))).trans Nat.cast_zero.symm)
    (fun _ => rfl) (fun _ => rfl) j i

/-- 32 rows written at row 0 of a 64-row array. -/
theorem rows_at_0 (x : S64x512.Idx → EReal) (u : S32x512.Idx → EReal) (r : Fin 64) (c : Fin 512) :
    Host.scatter scatter_S64x512_S1_S32x512_01_n_0_0 (fun _ b => b) x (broadcastInDim S1 ![] bcast_S_S1 (constantI S_ 32 0#32)) u (ix2 r c)
      = if h : r.val < 32 then u (ix2 ⟨r.val, h⟩ c) else x (ix2 r c) := by
  refine (scatter2_apply scatter_S64x512_S1_S32x512_01_n_0_0 (fun _ b => b) x _ u 0 0
    (rows64_lands 0#32 0 (by decide)) r c).trans ?_
  have hc := c.isLt
  by_cases h : r.val < 32
  · rw [dif_pos h, dif_pos ⟨Nat.zero_le _, by omega, Nat.zero_le _, by omega⟩]
    rfl
  · rw [dif_neg h, dif_neg (by omega)]
/-- 32 rows written at row 32 of a 64-row array. -/
theorem rows_at_32 (x : S64x512.Idx → EReal) (u : S32x512.Idx → EReal) (r : Fin 64) (c : Fin 512) :
    Host.scatter scatter_S64x512_S1_S32x512_01_n_0_0 (fun _ b => b) x (broadcastInDim S1 ![] bcast_S_S1 (constantI S_ 32 32#32)) u (ix2 r c)
      = if h : 32 ≤ r.val then u (ix2 ⟨r.val - 32, by omega⟩ c) else x (ix2 r c) := by
  refine (scatter2_apply scatter_S64x512_S1_S32x512_01_n_0_0 (fun _ b => b) x _ u 32 0
    (rows64_lands 32#32 32 (by decide)) r c).trans ?_
  have hc := c.isLt
  have hr := r.isLt
  by_cases h : 32 ≤ r.val
  · rw [dif_pos h, dif_pos ⟨h, by omega, Nat.zero_le _, by omega⟩]
    rfl
  · rw [dif_neg h, dif_neg (by omega)]
/-- 32 columns written at column 0 of a 128-column array. -/
theorem cols_at_0 (x : S512x128.Idx → EReal) (u : S512x32.Idx → EReal) (k : Fin 512) (j : Fin 128) :
    Host.scatter scatter_S512x128_S1_S512x32_01_n_1_0 (fun _ b => b) x (broadcastInDim S1 ![] bcast_S_S1 (constantI S_ 32 0#32)) u (ix2 k j)
      = if h : j.val < 32 then u (ix2 k ⟨j.val, h⟩) else x (ix2 k j) := by
  refine (scatter2_apply scatter_S512x128_S1_S512x32_01_n_1_0 (fun _ b => b) x _ u 0 0
    (cols128_lands 0#32 0 (by decide)) k j).trans ?_
  have hk := k.isLt
  by_cases h : j.val < 32
  · rw [dif_pos h, dif_pos ⟨Nat.zero_le _, by omega, Nat.zero_le _, by omega⟩]
    rfl
  · rw [dif_neg h, dif_neg (by omega)]
/-- 32 rows written at row 0 of a 128-row array. -/
theorem rows128_at_0 (x : S128x512.Idx → EReal) (u : S32x512.Idx → EReal) (j : Fin 128) (c : Fin 512) :
    Host.scatter scatter_S128x512_S1_S32x512_01_n_0_0 (fun _ b => b) x (broadcastInDim S1 ![] bcast_S_S1 (constantI S_ 32 0#32)) u (ix2 j c)
      = if h : j.val < 32 then u (ix2 ⟨j.val, h⟩ c) else x (ix2 j c) := by
  refine (scatter2_apply scatter_S128x512_S1_S32x512_01_n_0_0 (fun _ b => b) x _ u 0 0
    (rows128_lands 0#32 0 (by decide)) j c).trans ?_
  have hc := c.isLt
  by_cases h : j.val < 32
  · rw [dif_pos h, dif_pos ⟨Nat.zero_le _, by omega, Nat.zero_le _, by omega⟩]
    rfl
  · rw [dif_neg h, dif_neg (by omega)]

end Cert.ReferenceIdeal.RScatter
end
-- ==== Proof.RStack.lean ====
/-
  The arrays the second program builds on the host, as pure functions of what they are built from, read at an index.

  `rowsOf x` is `x` as 16384 rows of 1024: row `512·b + c`, column `s` is `x[b, c, s / 32, s % 32]`.
  `stackOf P₁ P₂` is the 64-row stack the two-layer kernel reads: two pooled columns `[16384, 1]`, each re-laid as `[32, 512]`
  (entry `(b, c)` is row `512·b + c`), written into a zero array at rows 0–31 and 32–63.
  `w1pad w1` is `w1` transposed into columns 0–31 of a zero `[512, 128]` array, `w2pad w2` is `w2` transposed into rows 0–31
  of a zero `[128, 512]` array. `outOf y` appends two unit axes.
  Over the pooled columns of `rowsOf x` the two-layer map of the stack is the second form of the attention (`Spec.rOutAt`).
-/
import proofs.«103996_g2000006314751908_pallasbulk_691_21_alg».proof.Proof.RScatter
import proofs.«103996_g2000006314751908_pallasbulk_691_21_alg».proof.Proof.Spec
import Idealize.ShloMosaic.Lib.Pipeline.Value
import Idealize.ShloMosaic.Lib.ValueLayout
import Idealize.ShloMosaic.PureOps.Ideal.Laws

set_option maxRecDepth 16384

noncomputable section

namespace Cert.ReferenceIdeal.RStack

open Idealize.ShloMosaic Idealize.ShloMosaic.ValueIdx
open Cert.ReferenceIdeal Cert.ReferenceIdeal.Facts₀

/-- `x` as 16384 rows of 1024. -/
def rowsOf (x : S32x512x32x32.Idx → EReal) : S16384x1024.Idx → EReal :=
  shapeCast S16384x1024 x shapeCasts_S32x512x32x32_S16384x1024

/-- A pooled column re-laid as `[32, 512]`. -/
def matOf (P : S16384x1.Idx → EReal) : S32x512.Idx → EReal :=
  shapeCast S32x512 (shapeCast S16384 P shapeCasts_S16384x1_S16384) shapeCasts_S16384_S32x512

/-- The 64-row stack: the first pooled column at rows 0–31, the second at rows 32–63 of a zero array. -/
def stackOf (P₁ P₂ : S16384x1.Idx → EReal) : S64x512.Idx → EReal :=
  Host.scatter scatter_S64x512_S1_S32x512_01_n_0_0 (fun _ b => b)
    (Host.scatter scatter_S64x512_S1_S32x512_01_n_0_0 (fun _ b => b)
      (broadcastInDim S64x512 ![] bcast_S_S64x512 (constant (F := Ideal) S_ .f32 0x00000000#32))
      (broadcastInDim S1 ![] bcast_S_S1 (constantI S_ 32 0#32)) (matOf P₁))
    (broadcastInDim S1 ![] bcast_S_S1 (constantI S_ 32 32#32)) (matOf P₂)

/-- `w1` transposed into the first 32 columns of a zero `[512, 128]` array. -/
def w1pad (w1 : S32x512x1x1.Idx → EReal) : S512x128.Idx → EReal :=
  Host.scatter scatter_S512x128_S1_S512x32_01_n_1_0 (fun _ b => b)
    (broadcastInDim S512x128 ![] bcast_S_S512x128 (constant (F := Ideal) S_ .f32 0x00000000#32))
    (broadcastInDim S1 ![] bcast_S_S1 (constantI S_ 32 0#32))
    (transpose S512x32 [1, 0] (shapeCast S32x512 w1 shapeCasts_S32x512x1x1_S32x512) transposes_S32x512_S512x32_1_0)

/-- `w2` transposed into the first 32 rows of a zero `[128, 512]` array. -/
def w2pad (w2 : S512x32x1x1.Idx → EReal) : S128x512.Idx → EReal :=
  Host.scatter scatter_S128x512_S1_S32x512_01_n_0_0 (fun _ b => b)
    (broadcastInDim S128x512 ![] bcast_S_S128x512 (constant (F := Ideal) S_ .f32 0x00000000#32))
    (broadcastInDim S1 ![] bcast_S_S1 (constantI S_ 32 0#32))
    (transpose S32x512 [1, 0] (shapeCast S512x32 w2 shapeCasts_S512x32x1x1_S512x32) transposes_S512x32_S32x512_1_0)

/-- The result with two unit axes appended. -/
def outOf (y : S32x512.Idx → EReal) : S32x512x1x1.Idx → EReal :=
  shapeCast S32x512x1x1 y shapeCasts_S32x512_S32x512x1x1

/-! ## Read at an index -/

/-- A zero array is zero everywhere. -/
theorem zeros_apply {s : Shape} (h : S_.BroadcastsInDim s (![] : Fin 0 → Fin s.rank)) (i : s.Idx) :
    broadcastInDim s ![] h (constant (F := Ideal) S_ .f32 0x00000000#32) i = 0 := by
  refine (broadcastInDim_apply ![] h _ i ix0 (fun a => a.elim0)).trans ?_
  exact Ideal.ofBits_zero_f32

/-- Row `512·b + c`, column `s` of the rows is `x[b, c, s / 32, s % 32]`. -/
theorem rowsOf_apply (x : S32x512x32x32.Idx → EReal) (b : Fin 32) (c : Fin 512) (s : Fin 1024) (p : Fin 16384)
    (hp : p.val = b.val * 512 + c.val) :
    rowsOf x (ix2 p s) = x (ix4 b c (Cert.Spec.hi s) (Cert.Spec.lo s)) :=
  shapeCast_apply x _ _ _ (by
    rw [Shape.rowMajor_val_four, Shape.rowMajor_val_two]
    show ((b.val * 512 + c.val) * 32 + s.val / 32) * 32 + s.val % 32 = p.val * 1024 + s.val
    omega)

/-- Entry `(b, c)` of a re-laid pooled column is its row `512·b + c`. -/
theorem matOf_apply (P : S16384x1.Idx → EReal) (b : Fin 32) (c : Fin 512) :
    matOf P (ix2 b c) = P (ix2 (⟨b.val * 512 + c.val, by omega⟩ : Fin 16384) (0 : Fin 1)) := by
  unfold matOf
  refine (shapeCast_apply _ _ (ix2 b c) (ix1 (⟨b.val * 512 + c.val, by omega⟩ : Fin 16384)) ?_).trans ?_
  · rw [Shape.rowMajor_val_one, Shape.rowMajor_val_two]; rfl
  · exact shapeCast_apply P _ _ _ (by
      rw [Shape.rowMajor_val_two, Shape.rowMajor_val_one]
      show (b.val * 512 + c.val) * 1 + 0 = b.val * 512 + c.val
      omega)

/-- The stack's upper half is the first pooled column. -/
theorem stackOf_upper (P₁ P₂ : S16384x1.Idx → EReal) (b : Fin 32) (c : Fin 512) :
    stackOf P₁ P₂ (ix2 (Cert.Spec.upper b) c) = P₁ (ix2 (⟨b.val * 512 + c.val, by omega⟩ : Fin 16384) (0 : Fin 1)) := by
  have hb : (Cert.Spec.upper b).val = b.val := rfl
  unfold stackOf
  rw [RScatter.rows_at_32, dif_neg (by rw [hb]; omega), RScatter.rows_at_0, dif_pos (by rw [hb]; omega)]
  exact (congrArg (fun r => matOf P₁ (ix2 r c)) (Fin.ext hb)).trans (matOf_apply P₁ b c)

/-- The stack's lower half is the second pooled column. -/
theorem stackOf_lower (P₁ P₂ : S16384x1.Idx → EReal) (b : Fin 32) (c : Fin 512) :
    stackOf P₁ P₂ (ix2 (Cert.Spec.lower b) c) = P₂ (ix2 (⟨b.val * 512 + c.val, by omega⟩ : Fin 16384) (0 : Fin 1)) := by
  have hb : (Cert.Spec.lower b).val = 32 + b.val := rfl
  unfold stackOf
  rw [RScatter.rows_at_32, dif_pos (by rw [hb]; omega)]
  exact (congrArg (fun r => matOf P₂ (ix2 r c)) (Fin.ext (by show (Cert.Spec.lower b).val - 32 = b.val; rw [hb]; omega))).trans
    (matOf_apply P₂ b c)

/-- The padded first layer, entry by entry. -/
theorem w1pad_apply (w1 : S32x512x1x1.Idx → EReal) (k : Fin 512) (j : Fin 128) :
    w1pad w1 (ix2 k j) = Cert.Spec.w1p w1 k j := by
  unfold w1pad Cert.Spec.w1p
  rw [RScatter.cols_at_0]
  by_cases h : j.val < 32
  · rw [dif_pos h, dif_pos h, ValueIdx.transpose_ix2_apply]
    exact shapeCast_apply w1 _ _ _ (by
      rw [Shape.rowMajor_val_four, Shape.rowMajor_val_two]
      show ((j.val * 512 + k.val) * 1 + 0) * 1 + 0 = j.val * 512 + k.val
      omega)
  · rw [dif_neg h, dif_neg h]
    exact zeros_apply _ _

/-- The padded second layer, entry by entry. -/
theorem w2pad_apply (w2 : S512x32x1x1.Idx → EReal) (j : Fin 128) (c : Fin 512) :
    w2pad w2 (ix2 j c) = Cert.Spec.w2p w2 j c := by
  unfold w2pad Cert.Spec.w2p
  rw [RScatter.rows128_at_0]
  by_cases h : j.val < 32
  · rw [dif_pos h, dif_pos h, ValueIdx.transpose_ix2_apply]
    exact shapeCast_apply w2 _ _ _ (by
      rw [Shape.rowMajor_val_four, Shape.rowMajor_val_two]
      show ((c.val * 32 + j.val) * 1 + 0) * 1 + 0 = c.val * 32 + j.val
      omega)
  · rw [dif_neg h, dif_neg h]
    exact zeros_apply _ _

/-- The result at `(b, c, 0, 0)` is the `[32, 512]` array at `(b, c)`. -/
theorem outOf_apply (y : S32x512.Idx → EReal) (b : Fin 32) (c : Fin 512) (u v : Fin 1) :
    outOf y (ix4 b c u v) = y (ix2 b c) :=
  shapeCast_apply y _ _ _ (by
    rw [Shape.rowMajor_val_two, Shape.rowMajor_val_four]
    show b.val * 512 + c.val = ((b.val * 512 + c.val) * 1 + u.val) * 1 + v.val
    omega)

/-! ## The two-layer map of the stack is the second form of the attention -/

/-- The pooled maxima of the rows of `x`. -/
theorem rowMax_rowsOf (x : S32x512x32x32.Idx → EReal) (b : Fin 32) (c : Fin 512) :
    Cert.Spec.rowMax (rowsOf x) (⟨b.val * 512 + c.val, by omega⟩ : Fin 16384) = Cert.Spec.pmax x b c := by
  unfold Cert.Spec.rowMax Cert.Spec.pmax
  exact Finset.fold_congr fun s _ => rowsOf_apply x b c s _ rfl

/-- The pooled means of the rows of `x`. -/
theorem rowAvg_rowsOf (x : S32x512x32x32.Idx → EReal) (b : Fin 32) (c : Fin 512) :
    Cert.Spec.rowAvg (rowsOf x) (⟨b.val * 512 + c.val, by omega⟩ : Fin 16384) = Cert.Spec.pavg x b c := by
  unfold Cert.Spec.rowAvg Cert.Spec.pavg
  exact congrArg (· * Cert.Spec.invHW) (Finset.sum_congr rfl fun s _ => rowsOf_apply x b c s _ rfl)

/-- The two-layer map over the stack of the pooled rows of `x` against the padded layers is `Spec.rOutAt`. -/
theorem mlp_stack (x : S32x512x32x32.Idx → EReal) (w1 : S32x512x1x1.Idx → EReal) (w2 : S512x32x1x1.Idx → EReal)
    (b : Fin 32) (c : Fin 512) :
    Cert.Spec.mlpAt
        (stackOf (fun i => Cert.Spec.rowMax (rowsOf x) (i 0)) (fun i => Cert.Spec.rowAvg (rowsOf x) (i 0)))
        (w1pad w1) (w2pad w2) b c
      = Cert.Spec.rOutAt x w1 w2 b c := by
  unfold Cert.Spec.mlpAt Cert.Spec.rOutAt Cert.Spec.hidP
  simp only [stackOf_upper, stackOf_lower, w1pad_apply, w2pad_apply]
  have h1 : ∀ k : Fin 512, Cert.Spec.rowMax (rowsOf x) ((ix2 (⟨b.val * 512 + k.val, by omega⟩ : Fin 16384) (0 : Fin 1)) 0)
      = Cert.Spec.pmax x b k := fun k => rowMax_rowsOf x b k
  have h2 : ∀ k : Fin 512, Cert.Spec.rowAvg (rowsOf x) ((ix2 (⟨b.val * 512 + k.val, by omega⟩ : Fin 16384) (0 : Fin 1)) 0)
      = Cert.Spec.pavg x b k := fun k => rowAvg_rowsOf x b k
  simp only [h1, h2]

end Cert.ReferenceIdeal.RStack

end
-- ==== Proof.LibTRef.lean ====
/-
  A typed reference carries a buffer together with the equation between the buffer's type and the value's type;
  contents are moved to the buffer's type and back along that equation. Moving there and back changes nothing.
-/
import Idealize.ShloMosaic.Lib.StableHlo

namespace Cert.LibTRef

open Idealize.ShloMosaic

/-- Contents carried to a typed reference's buffer and back are the contents. -/
theorem ofBuf_toBuf {sg : RefSig} {Vl : EltTy → Type} {T : BufTy} (x : StableHlo.TRef sg T) (v : T.Contents Vl) :
    x.ofBuf (x.toBuf v) = v := by
  obtain ⟨r, rfl, h1, h2⟩ := x
  rfl

end Cert.LibTRef
-- ==== Proof.LibTRefCast.lean ====
/-
  A typed reference carries a buffer together with the equation between the buffer's type and the value's type; contents
  move to the buffer's type and back along that equation. Each move, taken alone, changes nothing: the moved contents are
  the contents, up to the type they are read at.
-/
import Idealize.ShloMosaic.Lib.StableHlo

namespace Cert.LibTRefCast

open Idealize.ShloMosaic

/-- Contents carried to a typed reference's buffer are the contents. -/
theorem toBuf_heq {sg : RefSig} {Vl : EltTy → Type} {T : BufTy} (x : StableHlo.TRef sg T) (v : T.Contents Vl) :
    HEq (x.toBuf v) v := by
  obtain ⟨r, rfl, h1, h2⟩ := x
  rfl

/-- Contents read back from a typed reference's buffer are the contents. -/
theorem ofBuf_heq {sg : RefSig} {Vl : EltTy → Type} {T : BufTy} (x : StableHlo.TRef sg T) (w : x.ref.ty.Contents Vl) :
    HEq (x.ofBuf w) w := by
  obtain ⟨r, rfl, h1, h2⟩ := x
  rfl

end Cert.LibTRefCast
-- ==== Proof.RHost.lean ====
/-
  The second program's host stretches, each read as one pure term of the contents it starts from: the reshape of `x` to
  rows; the stack of the pooled maxima over the pooled means, and the two weight matrices transposed and padded with zeros,
  each written into a zero array by one `scatter`; the reshape of the result.
-/
import proofs.«103996_g2000006314751908_pallasbulk_691_21_alg».proof.Proof.Gen.ReferenceIdeal.Launch
import proofs.«103996_g2000006314751908_pallasbulk_691_21_alg».proof.Proof.RStack
import proofs.«103996_g2000006314751908_pallasbulk_691_21_alg».proof.Proof.LibTRef
import proofs.«103996_g2000006314751908_pallasbulk_691_21_alg».proof.Proof.LibTRefCast
import Idealize.ShloMosaic.Lib.StableHlo.Run
import Idealize.ShloMosaic.PureOps.Ideal

set_option maxRecDepth 16384

noncomputable section

namespace Cert.ReferenceIdeal.RHost

open Idealize.ShloMosaic Idealize.ShloMosaic.TcCoe Idealize.SL.Sem Idealize.ShloMosaic.StableHlo
open Cert.ReferenceIdeal Cert.ReferenceIdeal.Facts₀ Cert.ReferenceIdeal.RStack Cert.LibTRefCast

/-- Before the pooling region: `x` as 16384 rows of 1024. -/
theorem v0_eq (V : Valuation τ sig (Elt Ideal)) :
    (after Gen.hostOps0 V (Proc.devRef .tc main_call0_v0) : S16384x1024.Idx → EReal)
      = rowsOf (V (Proc.devRef .tc main_arg0)) := by
  after_results
  rfl

/-- The first stretch leaves the weights alone. -/
theorem arg1_0 (V : Valuation τ sig (Elt Ideal)) :
    after Gen.hostOps0 V (Proc.devRef .tc main_arg1) = V (Proc.devRef .tc main_arg1) := by
  after_results
theorem arg2_0 (V : Valuation τ sig (Elt Ideal)) :
    after Gen.hostOps0 V (Proc.devRef .tc main_arg2) = V (Proc.devRef .tc main_arg2) := by
  after_results

set_option maxHeartbeats 400000 in
/-- Between the regions: `w1` transposed into the first 32 columns of a zero `[512, 128]` array. -/
theorem v17_eq (V : Valuation τ sig (Elt Ideal)) :
    (after Gen.hostOps1 V (Proc.devRef .tc main_call0_v17) : S512x128.Idx → EReal)
      = w1pad (V (Proc.devRef .tc main_arg1)) := by
  after_results
  simp only [Cert.LibTRef.ofBuf_toBuf]
  refine eq_of_heq ((toBuf_heq _ _).trans (heq_of_eq ?_))
  unfold w1pad
  refine congrArg (Host.scatter _ _ _ _) ?_
  refine congrArg (fun z => transpose S512x32 [1, 0] z _) ?_
  refine eq_of_heq ((ofBuf_heq _ _).trans (heq_of_eq ?_))
  rfl

set_option maxHeartbeats 400000 in
/-- Between the regions: `w2` transposed into the first 32 rows of a zero `[128, 512]` array. -/
theorem v20_eq (V : Valuation τ sig (Elt Ideal)) :
    (after Gen.hostOps1 V (Proc.devRef .tc main_call0_v20) : S128x512.Idx → EReal)
      = w2pad (V (Proc.devRef .tc main_arg2)) := by
  after_results
  simp only [Cert.LibTRef.ofBuf_toBuf]
  refine eq_of_heq ((toBuf_heq _ _).trans (heq_of_eq ?_))
  unfold w2pad
  refine congrArg (Host.scatter _ _ _ _) ?_
  refine congrArg (fun z => transpose S32x512 [1, 0] z _) ?_
  refine eq_of_heq ((ofBuf_heq _ _).trans (heq_of_eq ?_))
  rfl

set_option maxHeartbeats 400000 in
/-- Between the regions: the 64-row stack, maxima at rows 0–31 and means at rows 32–63 of a zero array. -/
theorem v14_eq (V : Valuation τ sig (Elt Ideal)) :
    (after Gen.hostOps1 V (Proc.devRef .tc main_call0_v14) : S64x512.Idx → EReal)
      = stackOf (V (Proc.devRef .tc main_call0_v1_0)) (V (Proc.devRef .tc main_call0_v1_1)) := by
  after_results
  simp only [Cert.LibTRef.ofBuf_toBuf]
  refine eq_of_heq ((toBuf_heq _ _).trans (heq_of_eq ?_))
  unfold stackOf
  refine (congrArg (Host.scatter _ _ _ _) (?h2 : _ = matOf (V (Proc.devRef .tc main_call0_v1_1)))).trans ?_
  case h2 =>
    refine eq_of_heq ((ofBuf_heq _ _).trans (heq_of_eq ?_))
    unfold matOf
    rfl
  refine congrFun (congrFun (congrArg (Host.scatter _ _) ?h1) _) _
  refine congrArg (Host.scatter _ _ _ _) ?_
  refine eq_of_heq ((ofBuf_heq _ _).trans (heq_of_eq ?_))
  unfold matOf
  rfl

/-- After the two-layer region: the result with two unit axes appended. -/
theorem out_eq (V : Valuation τ sig (Elt Ideal)) :
    (after Gen.hostOps2 V (Proc.devRef .tc main_v0) : S32x512x1x1.Idx → EReal)
      = outOf (V (Proc.devRef .tc main_call0_v21)) := by
  after_results
  rfl

end Cert.ReferenceIdeal.RHost

end
-- ==== Proof.LibLayout.lean ====
/-
  Three small readings of layout operations at an index given by coordinates, for the column forms a row reduction
  with kept dimensions produces: a vector of `a` entries cast to one column `[a, 1]`, a column broadcast along
  the rows `[a, 1] → [a, b]`, and the index a row sum inserts on the reduced axis.
-/
import Idealize.ShloMosaic.Lib.ValueLayout
import Idealize.ShloMosaic.PureOps.Ideal.Laws

namespace Cert.Attn.Layout

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index a sum along the rows inserts: row `p` with column `k` put back is `(p, k)`. -/
theorem lift_row {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- A sum along the rows of an `[a, b]` array of extended reals, read at row `p`: the sum of the row's entries. -/
theorem rowSum_apply {a b : ℕ} (src : FVec Ideal ⟨2, ![a, b]⟩ .f32) (h : (⟨2, ![a, b]⟩ : Shape).Reduces [1] (⟨1, ![a]⟩ : Shape))
    (hφ : FKind.Formats .f32) (hacc : (0x00000000#32 : BitVec 32) = FKind.add.neutral .f32 hφ) (p : Fin a) :
    multiReduction .add [1] (⟨1, ![a]⟩ : Shape) src 0x00000000#32 h hφ hacc (ix1 p) = ∑ k : Fin b, src (ix2 p k) := by
  refine (Ideal.multiReduction_add_single src 0x00000000#32 h hφ hacc (ix1 p)).trans ?_
  exact Finset.sum_congr rfl fun k _ => congrArg src (lift_row h p k)

end Cert.Attn.Layout
-- ==== Proof.RPoolPay.lean ====
/-
  The pooling kernel's two outputs at one grid point, as functions of the block of rows the point loads.

  The body first fills its two output columns (with `-∞` and with `0`), then replaces the first by its maximum with each
  row's maximum over the 1024 columns and the second by its sum with each row's sum, and last multiplies the second by
  `2⁻¹⁰`. Every store covers its whole column, so each column ends at the last store's value, in which the earlier
  stores appear only through what was loaded back: row `r` of the first column is `max (-∞) (max over k of B[r, k])`, which is
  that maximum, and row `r` of the second is `(0 + ∑ₖ B[r, k]) · 2⁻¹⁰`.
-/
import proofs.«103996_g2000006314751908_pallasbulk_691_21_alg».proof.Proof.Gen.ReferenceIdeal.Frame
import proofs.«103996_g2000006314751908_pallasbulk_691_21_alg».proof.Proof.LibLayout
import proofs.«103996_g2000006314751908_pallasbulk_691_21_alg».proof.Proof.Spec
import Idealize.ShloMosaic.Lib.Pipeline.Value
import Idealize.ShloMosaic.PureOps.Ideal.Laws

set_option maxRecDepth 16384

noncomputable section

namespace Cert.ReferenceIdeal.RPool

open Idealize.ShloMosaic Idealize.ShloMosaic.TcCoe Idealize.ShloMosaic.Tactic Idealize.SL.Sem
open Idealize.ShloMosaic.ValueIdx Cert.Attn.Layout
open Cert.ReferenceIdeal Cert.ReferenceIdeal.Gen

section AnyInstance
variable {F : FTy → Type} [FloatOps F]

theorem zero2 : (![0, 0] : Fin 2 → Nat) = fun _ => 0 := by funext a; fin_cases a <;> rfl

/-- The first output column after the body: the last store's value, the maximum of the loaded-back fill with the row maxima. -/
theorem out1_eq (c : Dev nD) (i : grid0.Coords) (arg2 : Memref sig .tc .vmem S2048x1024 .f32) (harg2 : arg2.IsWhole) (arg3 : Memref sig .tc .vmem S2048x1 .f32) (harg3 : arg3.IsWhole) (arg4 : Memref sig .tc .vmem S2048x1 .f32) (harg4 : arg4.IsWhole) (hc0 : cond0_0 i) (hc1 : cond0_1 i)
    (x0 : Vec F S2048x1024 .f32) :
    out0_A_1 c i arg2 harg2 arg3 harg3 arg4 harg4 hc0 hc1 x0 = k0_pay4 x0 (k0_pay1 (F := F)) := by
  unfold out0_A_1
  rw [View.read_writes_eq_canon _ _ _ (cover0_A_1 c i arg2 harg2 arg3 harg3 arg4 harg4 hc0 hc1 x0)]
  unfold kernelRun0_A
  dsimp only
  rw [View.canon_cons_unit_zero zero2]
  sl_unfold_run_names
  rw [View.readCov_unit_zero _ zero2]
  simp only [View.readAt_eq_ld, harg2.read_unread, View.ld_unit_zero (S := S2048x1024) zero2]

/-- The second output column after the body: the last store's value, `2⁻¹⁰` times the sum of the loaded-back fill with the row sums. -/
theorem out2_eq (c : Dev nD) (i : grid0.Coords) (arg2 : Memref sig .tc .vmem S2048x1024 .f32) (harg2 : arg2.IsWhole) (arg3 : Memref sig .tc .vmem S2048x1 .f32) (harg3 : arg3.IsWhole) (arg4 : Memref sig .tc .vmem S2048x1 .f32) (harg4 : arg4.IsWhole) (hc0 : cond0_0 i) (hc1 : cond0_1 i)
    (x0 : Vec F S2048x1024 .f32) :
    out0_A_2 c i arg2 harg2 arg3 harg3 arg4 harg4 hc0 hc1 x0 = k0_pay6 (k0_pay5 x0 (k0_pay2 (F := F))) := by
  unfold out0_A_2
  rw [View.read_writes_eq_canon _ _ _ (cover0_A_2 c i arg2 harg2 arg3 harg3 arg4 harg4 hc0 hc1 x0)]
  unfold kernelRun0_A
  dsimp only
  rw [View.canon_cons_unit_zero zero2]
  sl_unfold_run_names
  have hcov : ∀ (p q : S2048x1.Idx → Elt F .f32) (y : S2048x1.Idx),
      ∃ pc ∈ ([⟨Rect.unit ![0, 0] S2048x1.size Facts₀.inb_S2048x1_S2048x1_0_0, p⟩,
          ⟨Rect.unit ![0, 0] S2048x1.size Facts₀.inb_S2048x1_S2048x1_0_0, q⟩] : List (View.Piece (Elt F) S2048x1 .f32)), y ∈ pc.1.set :=
    fun p q y => ⟨⟨Rect.unit ![0, 0] S2048x1.size Facts₀.inb_S2048x1_S2048x1_0_0, p⟩, List.mem_cons_self,
      View.mem_set_unit_zero zero2 Facts₀.inb_S2048x1_S2048x1_0_0 y⟩
  rw [View.readCov_eq_canon_ld _ _ _ (hcov _ _), View.canon_cons_unit_zero zero2, View.ld_unit_zero zero2, View.readCov_unit_zero _ zero2]
  simp only [View.readAt_eq_ld, harg2.read_unread, View.ld_unit_zero (S := S2048x1024) zero2]

end AnyInstance

/-! ## The two columns at a row, over the extended reals -/

/-- A maximum along the rows of an `[a, b]` array of extended reals, read at row `p`: the fold of `max` over the row's entries. -/
theorem rowMax_apply {a b : ℕ} (src : FVec Ideal ⟨2, ![a, b]⟩ .f32) (h : (⟨2, ![a, b]⟩ : Shape).Reduces [1] (⟨1, ![a]⟩ : Shape))
    (hφ : FKind.Formats .f32) (hacc : (0xFF800000#32 : BitVec 32) = FKind.maximumf.neutral .f32 hφ) (p : Fin a) :
    multiReduction .maximumf [1] (⟨1, ![a]⟩ : Shape) src 0xFF800000#32 h hφ hacc (ix1 p)
      = (Finset.univ : Finset (Fin b)).fold max (Ideal.ofBits .f32 0xFF800000#32) (fun k => src (ix2 p k)) := by
  refine (Ideal.multiReduction_maximumf_single src 0xFF800000#32 h hφ hacc (ix1 p)).trans ?_
  exact Finset.fold_congr fun k _ => congrArg src (lift_row h p k)

/-- Row `r` of the first column: the maximum of the block's row `r`, from `-∞`. -/
theorem pay_max (B : Vec Ideal S2048x1024 .f32) (r : Fin 2048) (u : Fin 1) :
    k0_pay4 (F := Ideal) B (k0_pay1 (F := Ideal)) (ix2 r u)
      = (Finset.univ : Finset (Fin 1024)).fold max Cert.Spec.negInf (fun k => B (ix2 r k)) := by
  unfold k0_pay4 k0_pay3 k0_pay1
  dsimp only
  rw [maximumf_apply, shapeCast_self, shapeCast_self, shapeCast_a_a1_apply]
  refine (congrArg (max _) (rowMax_apply B Facts₀.reduces_S2048x1024_S2048 _ _ r)).trans ?_
  exact max_eq_right ((Finset.le_fold_max _).mpr (Or.inl le_rfl))

/-- Row `r` of the second column: the sum of the block's row `r`, times `2⁻¹⁰`. -/
theorem pay_avg (B : Vec Ideal S2048x1024 .f32) (r : Fin 2048) (u : Fin 1) :
    k0_pay6 (F := Ideal) (k0_pay5 (F := Ideal) B (k0_pay2 (F := Ideal))) (ix2 r u)
      = (∑ k : Fin 1024, B (ix2 r k)) * Cert.Spec.invHW := by
  unfold k0_pay6 k0_pay5 k0_pay3 k0_pay2
  dsimp only
  rw [mulf_apply, shapeCast_self, addf_apply, shapeCast_self, shapeCast_self, shapeCast_a_a1_apply]
  refine (congrArg (fun z => (_ + z) * _) (rowSum_apply B Facts₀.reduces_S2048x1024_S2048 _ _ r)).trans ?_
  show (Ideal.ofBits .f32 0x00000000#32 + _) * _ = _
  rw [Ideal.ofBits_zero_f32, zero_add]
  rfl

end Cert.ReferenceIdeal.RPool

end
-- ==== Proof.RPool.lean ====
/-
  The pooling region's two output arrays after the run, as functions of the `[16384, 1024]` array the region finds.

  The grid has eight points; point `t` loads rows `2048·t … 2048·t + 2047` and writes the same rows of the two `[16384, 1]`
  output arrays. So row `p` of the first output is the maximum of row `p` of the input and row `p` of the second is its sum times
  `2⁻¹⁰`: what point `p / 2048` wrote at its local row `p % 2048`. The eight blocks tile the outputs.
-/
import proofs.«103996_g2000006314751908_pallasbulk_691_21_alg».proof.Proof.RPoolPay

set_option maxRecDepth 16384

noncomputable section

namespace Cert.ReferenceIdeal.RPool

open Idealize.ShloMosaic Idealize.ShloMosaic.TcCoe Idealize.ShloMosaic.Tactic Idealize.SL.Sem
open Idealize.ShloMosaic.ValueIdx Idealize.ShloMosaic.Pipeline
open Cert.ReferenceIdeal Cert.ReferenceIdeal.Gen

/-- The printed index maps over the grid: the input's block and the two outputs' blocks of a point are on the same rows,
    in block column 0, and there are eight block rows. -/
theorem idx_facts : ∀ t : Fin cfg0.N, win0_0.index t (0 : Fin 2) = win0_1.index t (0 : Fin 2)
    ∧ win0_0.index t (1 : Fin 2) = 0 ∧ win0_1.index t (1 : Fin 2) = 0
    ∧ win0_2.index t (0 : Fin 2) = win0_1.index t (0 : Fin 2) ∧ win0_2.index t (1 : Fin 2) = 0
    ∧ win0_1.index t (0 : Fin 2) ≤ 7 :=
  (by decide +kernel : ∀ t : Fin grid0.N, _)

/-- Every block row is some point's. -/
theorem idx_onto : ∀ q0 : Fin 8, ∃ t : Fin cfg0.N, win0_1.index t = ![q0.val, 0] ∧ win0_2.index t = ![q0.val, 0] :=
  (by decide +kernel : ∀ q0 : Fin 8, ∃ t : Fin grid0.N, win0_1.index t = ![q0.val, 0] ∧ win0_2.index t = ![q0.val, 0])

/-- Local row `y` of block row `q` of the first column is the maximum of row `2048·q + y` of the input. -/
theorem col_max (X : S16384x1024.Idx → EReal) (B : Vec Ideal S2048x1024 .f32) (q : ℕ) (hq : q ≤ 7)
    (hB : ∀ (r : Fin 2048) (k : Fin 1024), B (ix2 r k) = X (ix2 (⟨q * 2048 + r.val, by omega⟩ : Fin 16384) k))
    (y : S2048x1.Idx) (p : Fin 16384) (hp : p.val = q * 2048 + (y 0).val) :
    k0_pay4 (F := Ideal) B (k0_pay1 (F := Ideal)) y = Cert.Spec.rowMax X p := by
  obtain ⟨r, u, rfl⟩ : ∃ (r : Fin 2048) (u : Fin 1), y = ix2 r u := ⟨y 0, y 1, eq_ix2 y⟩
  have hp' : p.val = q * 2048 + r.val := hp
  rw [pay_max]
  unfold Cert.Spec.rowMax
  refine Finset.fold_congr fun k _ => ?_
  rw [hB]
  exact congrArg (fun r' => X (ix2 r' k)) (Fin.ext hp'.symm)

/-- Local row `y` of block row `q` of the second column is `2⁻¹⁰` times the sum of row `2048·q + y` of the input. -/
theorem col_avg (X : S16384x1024.Idx → EReal) (B : Vec Ideal S2048x1024 .f32) (q : ℕ) (hq : q ≤ 7)
    (hB : ∀ (r : Fin 2048) (k : Fin 1024), B (ix2 r k) = X (ix2 (⟨q * 2048 + r.val, by omega⟩ : Fin 16384) k))
    (y : S2048x1.Idx) (p : Fin 16384) (hp : p.val = q * 2048 + (y 0).val) :
    k0_pay6 (F := Ideal) (k0_pay5 (F := Ideal) B (k0_pay2 (F := Ideal))) y = Cert.Spec.rowAvg X p := by
  obtain ⟨r, u, rfl⟩ : ∃ (r : Fin 2048) (u : Fin 1), y = ix2 r u := ⟨y 0, y 1, eq_ix2 y⟩
  have hp' : p.val = q * 2048 + r.val := hp
  rw [pay_avg]
  unfold Cert.Spec.rowAvg
  refine congrArg (· * Cert.Spec.invHW) (Finset.sum_congr rfl fun k _ => ?_)
  rw [hB]
  exact congrArg (fun r' => X (ix2 r' k)) (Fin.ext hp'.symm)

variable (V : (c : Dev nD) → (b : Ref sig .tc) → Buf (Elt Ideal) ((c : Thread nD τ).loc b))

/-- The input block of point `t`, read at local `(r, k)`: row `2048·(block row) + r`, column `k` of the array. -/
theorem blk0_read (c : Dev nD) (t : Fin cfg0.N) (r : Fin 2048) (k : Fin 1024) :
    iblk0 V c 0 t (ix2 r k)
      = (V c main_call0_v0 : S16384x1024.Idx → EReal) (ix2 (⟨win0_1.index t (0 : Fin 2) * 2048 + r.val, by
          have := (idx_facts t).2.2.2.2.2; omega⟩ : Fin 16384) k) := by
  obtain ⟨e0, e1, e2, e3, e4, e5⟩ := idx_facts t
  show V c main_call0_v0 (((cfg0.win 0).blk t).view.emb (ix2 r k)) = _
  refine congrArg (V c main_call0_v0) (funext fun a => Fin.ext ?_)
  match a with
  | ⟨0, _⟩ => show win0_0.index t (0 : Fin 2) * 2048 + 1 * r.val = win0_1.index t (0 : Fin 2) * 2048 + r.val; omega
  | ⟨1, _⟩ => show win0_0.index t (1 : Fin 2) * 1024 + 1 * k.val = k.val; omega

/-- What point `t` writes back to the first output is block `t` of the row maxima. -/
theorem flushed1_eq (c : Dev nD) (t : Fin cfg0.N) :
    (dat0 V c).flushed 1 t
      = ((cfg0.win 1).blk t).view.read (Elt Ideal) (fun i => Cert.Spec.rowMax (V c main_call0_v0) (i 0)) := by
  show (cfg0.win 1).cut (grid0.coords t) ((dat0 V c).after 1 t) = _
  rw [after0_1]
  unfold outsAt0
  dsimp only
  rw [out1_eq]
  obtain ⟨e0, e1, e2, e3, e4, e5⟩ := idx_facts t
  funext y
  show k0_pay4 (F := Ideal) (iblk0 V c 0 t) (k0_pay1 (F := Ideal)) y
    = Cert.Spec.rowMax (V c main_call0_v0) ((((cfg0.win 1).blk t).view.emb y) 0)
  refine col_max (V c main_call0_v0) (iblk0 V c 0 t) (win0_1.index t (0 : Fin 2)) e5 (fun r k => blk0_read V c t r k) y _ ?_
  show win0_1.index t (0 : Fin 2) * 2048 + 1 * (y 0).val = win0_1.index t (0 : Fin 2) * 2048 + (y 0).val
  omega

/-- What point `t` writes back to the second output is block `t` of the row means. -/
theorem flushed2_eq (c : Dev nD) (t : Fin cfg0.N) :
    (dat0 V c).flushed 2 t
      = ((cfg0.win 2).blk t).view.read (Elt Ideal) (fun i => Cert.Spec.rowAvg (V c main_call0_v0) (i 0)) := by
  show (cfg0.win 2).cut (grid0.coords t) ((dat0 V c).after 2 t) = _
  rw [after0_2]
  unfold outsAt0
  dsimp only
  rw [out2_eq]
  obtain ⟨e0, e1, e2, e3, e4, e5⟩ := idx_facts t
  funext y
  show k0_pay6 (F := Ideal) (k0_pay5 (F := Ideal) (iblk0 V c 0 t) (k0_pay2 (F := Ideal))) y
    = Cert.Spec.rowAvg (V c main_call0_v0) ((((cfg0.win 2).blk t).view.emb y) 0)
  refine col_avg (V c main_call0_v0) (iblk0 V c 0 t) (win0_1.index t (0 : Fin 2)) e5 (fun r k => blk0_read V c t r k) y _ ?_
  show win0_2.index t (0 : Fin 2) * 2048 + 1 * (y 0).val = win0_1.index t (0 : Fin 2) * 2048 + (y 0).val
  omega

/-- An index of the first output is in point `t`'s block iff each coordinate is in the block's range on its axis. -/
theorem mem_blk1 (t : Fin cfg0.N) (i : S16384x1.Idx) :
    i ∈ ((cfg0.win 1).blk t).view.set ↔ ∀ a : Fin 2, win0_1.index t a * S2048x1.size a ≤ (i a).val ∧ (i a).val < win0_1.index t a * S2048x1.size a + S2048x1.size a := by
  show i ∈ ((View.whole main_call0_v1_0).slice (win0_1.rect t)).set ↔ _
  rw [View.set_slice_whole, Rect.mem_set_unit]
  exact Iff.rfl
/-- The same for the second output. -/
theorem mem_blk2 (t : Fin cfg0.N) (i : S16384x1.Idx) :
    i ∈ ((cfg0.win 2).blk t).view.set ↔ ∀ a : Fin 2, win0_2.index t a * S2048x1.size a ≤ (i a).val ∧ (i a).val < win0_2.index t a * S2048x1.size a + S2048x1.size a := by
  show i ∈ ((View.whole main_call0_v1_1).slice (win0_2.rect t)).set ↔ _
  rw [View.set_slice_whole, Rect.mem_set_unit]
  exact Iff.rfl

/-- Every row of the first output is in the block of the point whose block row is `row / 2048`. -/
theorem cover1 (i : S16384x1.Idx) : ∃ t : Fin cfg0.N, (cfg0.win 1).flush t = true ∧ i ∈ ((cfg0.win 1).blk t).view.set := by
  have hi0 : (i 0).val < 16384 := (i 0).isLt
  have hi1 : (i 1).val < 1 := (i 1).isLt
  obtain ⟨t, ht, -⟩ := idx_onto ⟨(i 0).val / 2048, by omega⟩
  have q0 : win0_1.index t (0 : Fin 2) = (i 0).val / 2048 := congrFun ht 0
  have q1 : win0_1.index t (1 : Fin 2) = 0 := congrFun ht 1
  refine ⟨t, flush0_1 t, ?_⟩
  rw [mem_blk1]
  intro a
  match a with
  | ⟨0, _⟩ => show win0_1.index t (0 : Fin 2) * 2048 ≤ (i 0).val ∧ (i 0).val < win0_1.index t (0 : Fin 2) * 2048 + 2048; omega
  | ⟨1, _⟩ => show win0_1.index t (1 : Fin 2) * 1 ≤ (i 1).val ∧ (i 1).val < win0_1.index t (1 : Fin 2) * 1 + 1; omega
/-- The same for the second output. -/
theorem cover2 (i : S16384x1.Idx) : ∃ t : Fin cfg0.N, (cfg0.win 2).flush t = true ∧ i ∈ ((cfg0.win 2).blk t).view.set := by
  have hi0 : (i 0).val < 16384 := (i 0).isLt
  have hi1 : (i 1).val < 1 := (i 1).isLt
  obtain ⟨t, -, ht⟩ := idx_onto ⟨(i 0).val / 2048, by omega⟩
  have q0 : win0_2.index t (0 : Fin 2) = (i 0).val / 2048 := congrFun ht 0
  have q1 : win0_2.index t (1 : Fin 2) = 0 := congrFun ht 1
  refine ⟨t, flush0_2 t, ?_⟩
  rw [mem_blk2]
  intro a
  match a with
  | ⟨0, _⟩ => show win0_2.index t (0 : Fin 2) * 2048 ≤ (i 0).val ∧ (i 0).val < win0_2.index t (0 : Fin 2) * 2048 + 2048; omega
  | ⟨1, _⟩ => show win0_2.index t (1 : Fin 2) * 1 ≤ (i 1).val ∧ (i 1).val < win0_2.index t (1 : Fin 2) * 1 + 1; omega

/-- The first output array after the run: every row's maximum. -/
theorem arr1 (c : Dev nD) :
    (dat0 (F := Ideal) V c).arrAt 1 cfg0.N = fun i => Cert.Spec.rowMax (V c main_call0_v0) (i 0) :=
  (dat0 V c).arrAt_eq_of_cover 1 (fun i => Cert.Spec.rowMax (V c main_call0_v0) (i 0)) (fun t _ => flushed1_eq V c t) cover1

/-- The second output array after the run: every row's mean. -/
theorem arr2 (c : Dev nD) :
    (dat0 (F := Ideal) V c).arrAt 2 cfg0.N = fun i => Cert.Spec.rowAvg (V c main_call0_v0) (i 0) :=
  (dat0 V c).arrAt_eq_of_cover 2 (fun i => Cert.Spec.rowAvg (V c main_call0_v0) (i 0)) (fun t _ => flushed2_eq V c t) cover2

end Cert.ReferenceIdeal.RPool

end
-- ==== Proof.RMlpPay.lean ====
/-
  The second region's stored value at one entry, over the extended reals.

  The body reads three whole blocks `x0 : [64, 512]`, `x1 : [512, 128]`, `x2 : [128, 512]` and stores the logistic
  function of the sum of the two halves (rows `b` and `32 + b`) of `max (x0 · x1) 0 · x2`. Read at the entry `(b, c)`:
  each matrix product into the zero block is the sum over its one contracted axis of the operands' products (the
  contraction index re-indexed by its one coordinate), the maximum with the zero splat is the maximum with `0`, and a
  unit-stride slice reads its operand shifted by the offsets. So the entry is `Spec.mlpAt x0 x1 x2 b c`.
-/
import proofs.«103996_g2000006314751908_pallasbulk_691_21_alg».proof.Proof.Gen.ReferenceIdeal.Skeleton
import proofs.«103996_g2000006314751908_pallasbulk_691_21_alg».proof.Proof.Spec
import Idealize.ShloMosaic.Lib.Pipeline.Value
import Idealize.ShloMosaic.Lib.ValueIdx
import Idealize.ShloMosaic.PureOps.Ideal.Laws

noncomputable section
namespace Cert.ReferenceIdeal.RMlp
open Idealize.ShloMosaic Idealize.ShloMosaic.TcCoe Idealize.SL.Sem Cert.ReferenceIdeal Idealize.ShloMosaic.ValueIdx

/-! ## The first product's operand indices -/

theorem lhs1_0 (i : S64x128.Idx) (q : dot_S64x512_S512x128_S64x128_1_0_0_1_n_n.contr.Idx) :
    (dot_S64x512_S512x128_S64x128_1_0_0_1_n_n.lhsIdx i q 0).val = (i 0).val := by
  unfold DotDims.lhsIdx
  rw [dif_neg (show ¬(0 : Fin S64x512.rank) ∈ dot_S64x512_S512x128_S64x128_1_0_0_1_n_n.lhsBatch by decide),
    dif_pos (show (0 : Fin S64x512.rank) ∈ dot_S64x512_S512x128_S64x128_1_0_0_1_n_n.lhsNonContracting by decide)]
  rfl
theorem lhs1_1 (i : S64x128.Idx) (q : dot_S64x512_S512x128_S64x128_1_0_0_1_n_n.contr.Idx) :
    (dot_S64x512_S512x128_S64x128_1_0_0_1_n_n.lhsIdx i q 1).val = (q ⟨0, by decide⟩).val :=
  dot_S64x512_S512x128_S64x128_1_0_0_1_n_n.lhsIdx_val_of_single rfl i q
theorem rhs1_0 (i : S64x128.Idx) (q : dot_S64x512_S512x128_S64x128_1_0_0_1_n_n.contr.Idx) :
    (dot_S64x512_S512x128_S64x128_1_0_0_1_n_n.rhsIdx i q 0).val = (q ⟨0, by decide⟩).val :=
  dot_S64x512_S512x128_S64x128_1_0_0_1_n_n.rhsIdx_val_of_single rfl i q
theorem rhs1_1 (i : S64x128.Idx) (q : dot_S64x512_S512x128_S64x128_1_0_0_1_n_n.contr.Idx) :
    (dot_S64x512_S512x128_S64x128_1_0_0_1_n_n.rhsIdx i q 1).val = (i 1).val := by
  unfold DotDims.rhsIdx
  rw [dif_neg (show ¬(1 : Fin S512x128.rank) ∈ dot_S64x512_S512x128_S64x128_1_0_0_1_n_n.rhsBatch by decide),
    dif_pos (show (1 : Fin S512x128.rank) ∈ dot_S64x512_S512x128_S64x128_1_0_0_1_n_n.rhsNonContracting by decide)]
  rfl

/-- The first product into the zero block at `(r, j)`: the sum over the 512 columns of row `r` of the left operand times
    column `j` of the right one. -/
theorem mm1_apply (x0 : FVec Ideal S64x512 .f32) (x1 : FVec Ideal S512x128 .f32) (r : Fin 64) (j : Fin 128) :
    matmul dot_S64x512_S512x128_S64x128_1_0_0_1_n_n none x0 x1 (constant S64x128 .f32 0x00000000#32) (ix2 r j)
      = ∑ k : Fin 512, x0 (ix2 r k) * x1 (ix2 k j) := by
  simp only [matmul]
  rw [Ideal.matmul_constant_zero_apply,
    ← Equiv.sum_comp (contrEquiv1 dot_S64x512_S512x128_S64x128_1_0_0_1_n_n 512 rfl rfl).symm]
  refine Finset.sum_congr rfl fun k _ => ?_
  have hk := contrEquiv1_symm_val dot_S64x512_S512x128_S64x128_1_0_0_1_n_n 512 rfl rfl k
  have el : dot_S64x512_S512x128_S64x128_1_0_0_1_n_n.lhsIdx (ix2 r j)
      ((contrEquiv1 dot_S64x512_S512x128_S64x128_1_0_0_1_n_n 512 rfl rfl).symm k) = ix2 r k :=
    funext fun a => Fin.ext (by
      match a with
      | ⟨0, _⟩ => exact lhs1_0 _ _
      | ⟨1, _⟩ => exact (lhs1_1 _ _).trans hk)
  have er : dot_S64x512_S512x128_S64x128_1_0_0_1_n_n.rhsIdx (ix2 r j)
      ((contrEquiv1 dot_S64x512_S512x128_S64x128_1_0_0_1_n_n 512 rfl rfl).symm k) = ix2 k j :=
    funext fun a => Fin.ext (by
      match a with
      | ⟨0, _⟩ => exact (rhs1_0 _ _).trans hk
      | ⟨1, _⟩ => exact rhs1_1 _ _)
  rw [el, er]

/-! ## The second product's operand indices -/

theorem lhs2_0 (i : S64x512.Idx) (q : dot_S64x128_S128x512_S64x512_1_0_0_1_n_n.contr.Idx) :
    (dot_S64x128_S128x512_S64x512_1_0_0_1_n_n.lhsIdx i q 0).val = (i 0).val := by
  unfold DotDims.lhsIdx
  rw [dif_neg (show ¬(0 : Fin S64x128.rank) ∈ dot_S64x128_S128x512_S64x512_1_0_0_1_n_n.lhsBatch by decide),
    dif_pos (show (0 : Fin S64x128.rank) ∈ dot_S64x128_S128x512_S64x512_1_0_0_1_n_n.lhsNonContracting by decide)]
  rfl
theorem lhs2_1 (i : S64x512.Idx) (q : dot_S64x128_S128x512_S64x512_1_0_0_1_n_n.contr.Idx) :
    (dot_S64x128_S128x512_S64x512_1_0_0_1_n_n.lhsIdx i q 1).val = (q ⟨0, by decide⟩).val :=
  dot_S64x128_S128x512_S64x512_1_0_0_1_n_n.lhsIdx_val_of_single rfl i q
theorem rhs2_0 (i : S64x512.Idx) (q : dot_S64x128_S128x512_S64x512_1_0_0_1_n_n.contr.Idx) :
    (dot_S64x128_S128x512_S64x512_1_0_0_1_n_n.rhsIdx i q 0).val = (q ⟨0, by decide⟩).val :=
  dot_S64x128_S128x512_S64x512_1_0_0_1_n_n.rhsIdx_val_of_single rfl i q
theorem rhs2_1 (i : S64x512.Idx) (q : dot_S64x128_S128x512_S64x512_1_0_0_1_n_n.contr.Idx) :
    (dot_S64x128_S128x512_S64x512_1_0_0_1_n_n.rhsIdx i q 1).val = (i 1).val := by
  unfold DotDims.rhsIdx
  rw [dif_neg (show ¬(1 : Fin S128x512.rank) ∈ dot_S64x128_S128x512_S64x512_1_0_0_1_n_n.rhsBatch by decide),
    dif_pos (show (1 : Fin S128x512.rank) ∈ dot_S64x128_S128x512_S64x512_1_0_0_1_n_n.rhsNonContracting by decide)]
  rfl

/-- The second product into the zero block at `(r, c)`: the sum over the 128 hidden units of row `r` of the left operand
    times column `c` of the right one. -/
theorem mm2_apply (h : FVec Ideal S64x128 .f32) (x2 : FVec Ideal S128x512 .f32) (r : Fin 64) (c : Fin 512) :
    matmul dot_S64x128_S128x512_S64x512_1_0_0_1_n_n none h x2 (constant S64x512 .f32 0x00000000#32) (ix2 r c)
      = ∑ j : Fin 128, h (ix2 r j) * x2 (ix2 j c) := by
  simp only [matmul]
  rw [Ideal.matmul_constant_zero_apply,
    ← Equiv.sum_comp (contrEquiv1 dot_S64x128_S128x512_S64x512_1_0_0_1_n_n 128 rfl rfl).symm]
  refine Finset.sum_congr rfl fun k _ => ?_
  have hk := contrEquiv1_symm_val dot_S64x128_S128x512_S64x512_1_0_0_1_n_n 128 rfl rfl k
  have el : dot_S64x128_S128x512_S64x512_1_0_0_1_n_n.lhsIdx (ix2 r c)
      ((contrEquiv1 dot_S64x128_S128x512_S64x512_1_0_0_1_n_n 128 rfl rfl).symm k) = ix2 r k :=
    funext fun a => Fin.ext (by
      match a with
      | ⟨0, _⟩ => exact lhs2_0 _ _
      | ⟨1, _⟩ => exact (lhs2_1 _ _).trans hk)
  have er : dot_S64x128_S128x512_S64x512_1_0_0_1_n_n.rhsIdx (ix2 r c)
      ((contrEquiv1 dot_S64x128_S128x512_S64x512_1_0_0_1_n_n 128 rfl rfl).symm k) = ix2 k c :=
    funext fun a => Fin.ext (by
      match a with
      | ⟨0, _⟩ => exact (rhs2_0 _ _).trans hk
      | ⟨1, _⟩ => exact rhs2_1 _ _)
  rw [el, er]

/-! ## The stored value at an entry -/

/-- A hidden unit: the first product at `(r, j)` against the zero splat is its maximum with `0`. -/
theorem hidden_apply (x0 : FVec Ideal S64x512 .f32) (x1 : FVec Ideal S512x128 .f32) (r : Fin 64) (j : Fin 128) :
    maximumf (matmul dot_S64x512_S512x128_S64x128_1_0_0_1_n_n none x0 x1 (constant S64x128 .f32 0x00000000#32))
        (broadcast S64x128 (Scalar.ofBits (F := Ideal) .f32 0x00000000#32)) (ix2 r j)
      = max (∑ k : Fin 512, x0 (ix2 r k) * x1 (ix2 k j)) 0 := by
  rw [maximumf_apply, mm1_apply, broadcast_apply]
  show max _ (Ideal.ofBits .f32 0x00000000#32) = _
  rw [Ideal.ofBits_zero_f32]

/-- The slice of the first 32 rows reads row `b` of the stack. -/
theorem slice_upper (v : FVec Ideal S64x512 .f32) (h : S64x512.Slices ![0, 0] S32x512) (b : Fin 32) (c : Fin 512) :
    extractStridedSlice S32x512 ![0, 0] v h (ix2 b c) = v (ix2 (Cert.Spec.upper b) c) :=
  extractStridedSlice_apply ![0, 0] v h (ix2 b c) (ix2 (Cert.Spec.upper b) c) (fun a => by
    match a with
    | ⟨0, _⟩ => show b.val = 0 + b.val; omega
    | ⟨1, _⟩ => show c.val = 0 + c.val; omega)

/-- The slice of the last 32 rows reads row `32 + b` of the stack. -/
theorem slice_lower (v : FVec Ideal S64x512 .f32) (h : S64x512.Slices ![32, 0] S32x512) (b : Fin 32) (c : Fin 512) :
    extractStridedSlice S32x512 ![32, 0] v h (ix2 b c) = v (ix2 (Cert.Spec.lower b) c) :=
  extractStridedSlice_apply ![32, 0] v h (ix2 b c) (ix2 (Cert.Spec.lower b) c) (fun a => by
    match a with
    | ⟨0, _⟩ => show 32 + b.val = 32 + b.val; rfl
    | ⟨1, _⟩ => show c.val = 0 + c.val; omega)

/-- The logistic function of a block reads the logistic function of the element. -/
theorem logistic_apply {s : Shape} {φ : FTy} (v : FVec Ideal s φ) (i : s.Idx) : logistic v i = Ideal.logistic (v i) := rfl

/-- THE STORED VALUE at `(b, c)`: the two-layer map of the three blocks there. -/
theorem pay_apply (x0 : Vec Ideal S64x512 .f32) (x1 : Vec Ideal S512x128 .f32) (x2 : Vec Ideal S128x512 .f32)
    (b : Fin 32) (c : Fin 512) :
    Gen.k1_pay1 (F := Ideal) x0 x1 x2 (ix2 b c) = Cert.Spec.mlpAt x0 x1 x2 b c := by
  unfold Gen.k1_pay1 Cert.Spec.mlpAt
  simp only [shapeCast_self]
  rw [logistic_apply, addf_apply, slice_upper, slice_lower, mm2_apply, mm2_apply]
  simp only [hidden_apply]

end Cert.ReferenceIdeal.RMlp
end
-- ==== Proof.RMlp.lean ====
/-
  What the second region leaves in its output array, as a function of the contents the region is entered with.

  The region has no grid: its one point stages the three operand arrays whole (`XS : [64, 512]`, `W1P : [512, 128]`,
  `W2P : [128, 512]`) and writes back one block, the whole `[32, 512]` result. Each input block read through its
  window is the array itself (the block index is 0 on every axis, so an element of the block sits at its own
  coordinates), the body's one store covers its buffer, and the stored value at `(b, c)` is the two-layer map
  `Spec.mlpAt XS W1P W2P b c` (the payload lemma). The one block covers every index of the array, so the array ends
  holding that function.
-/
import proofs.«103996_g2000006314751908_pallasbulk_691_21_alg».proof.Proof.Gen.ReferenceIdeal.Frame
import proofs.«103996_g2000006314751908_pallasbulk_691_21_alg».proof.Proof.Spec
import proofs.«103996_g2000006314751908_pallasbulk_691_21_alg».proof.Proof.RMlpPay
import Idealize.ShloMosaic.Lib.Pipeline.Value

noncomputable section
namespace Cert.ReferenceIdeal.RMlp
open Idealize.ShloMosaic Idealize.ShloMosaic.TcCoe Idealize.SL.Sem Cert.ReferenceIdeal Idealize.ShloMosaic.ValueIdx
open Idealize.ShloMosaic.Pipeline (Dat)

variable (V : (c : Dev nD) → (b : Ref sig .tc) → Buf (Elt Ideal) ((c : Thread nD τ).loc b))

/-- The zero offsets of a whole-buffer access, as the constant function. -/
theorem hz : (![0, 0] : Fin 2 → Nat) = fun _ => 0 := funext fun a => by fin_cases a <;> rfl

/-- The output array's contents after the region: the two-layer map of the three operand arrays, entry by entry. -/
abbrev G (c : Dev nD) : S32x512.Idx → EReal :=
  fun i => Cert.Spec.mlpAt (V c main_call0_v14) (V c main_call0_v17) (V c main_call0_v20) (i 0) (i 1)

/-! ## The input blocks are the operand arrays -/

/-- The stacked pooled rows' block at the one point is the array. -/
theorem iblk_0 (c : Dev nD) (t : Fin cfg1.N) :
    (Gen.iblk1 (F := Ideal) V c 0 t : S64x512.Idx → EReal) = (V c main_call0_v14 : S64x512.Idx → EReal) := by
  funext y
  show V c main_call0_v14 (((cfg1.win 0).blk t).view.emb y) = V c main_call0_v14 y
  refine congrArg _ (funext fun a => Fin.ext ?_)
  match a with
  | ⟨0, _⟩ => show 0 * 64 + 1 * (y 0).val = (y 0).val; omega
  | ⟨1, _⟩ => show 0 * 512 + 1 * (y 1).val = (y 1).val; omega

/-- The first layer's block at the one point is the array. -/
theorem iblk_1 (c : Dev nD) (t : Fin cfg1.N) :
    (Gen.iblk1 (F := Ideal) V c 1 t : S512x128.Idx → EReal) = (V c main_call0_v17 : S512x128.Idx → EReal) := by
  funext y
  show V c main_call0_v17 (((cfg1.win 1).blk t).view.emb y) = V c main_call0_v17 y
  refine congrArg _ (funext fun a => Fin.ext ?_)
  match a with
  | ⟨0, _⟩ => show 0 * 512 + 1 * (y 0).val = (y 0).val; omega
  | ⟨1, _⟩ => show 0 * 128 + 1 * (y 1).val = (y 1).val; omega

/-- The second layer's block at the one point is the array. -/
theorem iblk_2 (c : Dev nD) (t : Fin cfg1.N) :
    (Gen.iblk1 (F := Ideal) V c 2 t : S128x512.Idx → EReal) = (V c main_call0_v20 : S128x512.Idx → EReal) := by
  funext y
  show V c main_call0_v20 (((cfg1.win 2).blk t).view.emb y) = V c main_call0_v20 y
  refine congrArg _ (funext fun a => Fin.ext ?_)
  match a with
  | ⟨0, _⟩ => show 0 * 128 + 1 * (y 0).val = (y 0).val; omega
  | ⟨1, _⟩ => show 0 * 512 + 1 * (y 1).val = (y 1).val; omega

/-- The stored value at `(b, c)` over blocks known to be the arrays. -/
theorem pay_apply_of (x0 : Vec Ideal S64x512 .f32) (x1 : Vec Ideal S512x128 .f32) (x2 : Vec Ideal S128x512 .f32)
    (A0 : S64x512.Idx → EReal) (A1 : S512x128.Idx → EReal) (A2 : S128x512.Idx → EReal)
    (h0 : x0 = A0) (h1 : x1 = A1) (h2 : x2 = A2) (b : Fin 32) (c : Fin 512) :
    Gen.k1_pay1 (F := Ideal) x0 x1 x2 (ix2 b c) = Cert.Spec.mlpAt A0 A1 A2 b c := by
  subst h0 h1 h2
  exact pay_apply x0 x1 x2 b c

/-! ## What the one point writes back, and the array -/

/-- WHAT THE POINT WRITES BACK is the block of `G` there. -/
theorem flushed_eq (c : Dev nD) (t : Fin cfg1.N) :
    (Gen.dat1 (F := Ideal) V c).flushed 3 t = ((cfg1.win 3).blk t).view.read (Elt Ideal) (G V c) := by
  show (cfg1.win 3).cut (grid1.coords t) ((Gen.dat1 V c).after 3 t) = _
  rw [Gen.after1_3]
  unfold Gen.out1_3
  rw [View.canon_unit_zero hz]
  simp only [View.ld_unit_zero (S := S64x512) hz, View.ld_unit_zero (S := S512x128) hz,
    View.ld_unit_zero (S := S128x512) hz]
  funext j
  obtain ⟨p, q, rfl⟩ : ∃ (p : Fin 32) (q : Fin 512), j = ix2 p q := ⟨j 0, j 1, eq_ix2 j⟩
  have he : ((cfg1.win 3).blk t).view.emb (ix2 p q) = ix2 p q := funext fun a => Fin.ext (by
    match a with
    | ⟨0, _⟩ => show 0 * 32 + 1 * p.val = p.val; omega
    | ⟨1, _⟩ => show 0 * 512 + 1 * q.val = q.val; omega)
  show Gen.k1_pay1 (Gen.iblk1 V c 0 t) (Gen.iblk1 V c 1 t) (Gen.iblk1 V c 2 t) (ix2 p q)
    = G V c (((cfg1.win 3).blk t).view.emb (ix2 p q))
  rw [he]
  exact pay_apply_of _ _ _ _ _ _ (iblk_0 V c t) (iblk_1 V c t) (iblk_2 V c t) p q

/-- An index of the array is in the point's block iff each coordinate is in the block's range on its axis. -/
theorem mem_blk (t : Fin cfg1.N) (i : S32x512.Idx) :
    i ∈ ((cfg1.win 3).blk t).view.set ↔ ∀ a : Fin 2, win1_3.index t a * S32x512.size a ≤ (i a).val
      ∧ (i a).val < win1_3.index t a * S32x512.size a + S32x512.size a := by
  show i ∈ ((View.whole main_call0_v21).slice (win1_3.rect t)).set ↔ _
  rw [View.set_slice_whole, Rect.mem_set_unit]
  exact Iff.rfl

/-- The one block covers every index of the array. -/
theorem cover (i : S32x512.Idx) :
    ∃ t : Fin cfg1.N, (cfg1.win 3).flush t = true ∧ i ∈ ((cfg1.win 3).blk t).view.set := by
  refine ⟨Gen.t1_0, Gen.flush1_3 _, ?_⟩
  rw [mem_blk]
  intro a
  have h0 : (i 0).val < 32 := (i 0).isLt
  have h1 : (i 1).val < 512 := (i 1).isLt
  match a with
  | ⟨0, _⟩ => show 0 * 32 ≤ (i 0).val ∧ (i 0).val < 0 * 32 + 32; omega
  | ⟨1, _⟩ => show 0 * 512 ≤ (i 1).val ∧ (i 1).val < 0 * 512 + 512; omega

/-- THE ARRAY after the region: the two-layer map of the operand arrays as the region finds them. -/
theorem arr3 (V : (c : Dev nD) → (b : Ref sig .tc) → Buf (Elt Ideal) ((c : Thread nD τ).loc b)) (c : Dev nD) :
    (Gen.dat1 (F := Ideal) V c).arrAt 3 cfg1.N
      = fun i => Cert.Spec.mlpAt (V c main_call0_v14) (V c main_call0_v17) (V c main_call0_v20) (i 0) (i 1) :=
  (Gen.dat1 V c).arrAt_eq_of_cover 3 (G V c) (fun t _ => flushed_eq V c t) cover

end Cert.ReferenceIdeal.RMlp
end
-- ==== Proof.RValue.lean ====
/-
  The second program's result, through its five segments: the contents at each segment boundary, from the launch memory to
  the result buffer, each a pure function of the argument arrays; the last is the second form of the attention (`Spec.refOut`).
-/
import proofs.«103996_g2000006314751908_pallasbulk_691_21_alg».proof.Proof.RRun
import proofs.«103996_g2000006314751908_pallasbulk_691_21_alg».proof.Proof.RHost
import proofs.«103996_g2000006314751908_pallasbulk_691_21_alg».proof.Proof.RPool
import proofs.«103996_g2000006314751908_pallasbulk_691_21_alg».proof.Proof.RMlp
import proofs.«103996_g2000006314751908_pallasbulk_691_21_alg».proof.Proof.RStack

set_option maxRecDepth 16384

noncomputable section

namespace Cert.ReferenceIdeal.RValue

open Idealize.ShloMosaic Idealize.ShloMosaic.TcCoe Idealize.SL.Sem Idealize.ShloMosaic.ValueIdx
open Cert.ReferenceIdeal Cert.ReferenceIdeal.Gen Cert.ReferenceIdeal.RStack

variable (m : (ℓ : Loc nD τ sig) → Buf (Elt Ideal) ℓ) (ρ : Dev nD → PrngReg)

/-- Entering the pooling region: `x` as rows. -/
theorem W1_v0 (c : Dev nD) :
    (W1 m ρ c (Proc.devRef .tc main_call0_v0) : S16384x1024.Idx → EReal) = rowsOf (m ((c : Thread nD τ).loc main_arg0)) :=
  RHost.v0_eq (W0 m ρ c)

/-- Leaving the pooling region the weights are as launched. -/
theorem W2_arg1 (c : Dev nD) : W2 m ρ c (Proc.devRef .tc main_arg1) = m ((c : Thread nD τ).loc main_arg1) :=
  (W2_of_ne m ρ c main_arg1 (by decide)).trans (RHost.arg1_0 (W0 m ρ c))
theorem W2_arg2 (c : Dev nD) : W2 m ρ c (Proc.devRef .tc main_arg2) = m ((c : Thread nD τ).loc main_arg2) :=
  (W2_of_ne m ρ c main_arg2 (by decide)).trans (RHost.arg2_0 (W0 m ρ c))

/-- Leaving the pooling region: the row maxima. -/
theorem W2_v1_0 (c : Dev nD) :
    (W2 m ρ c (Proc.devRef .tc main_call0_v1_0) : S16384x1.Idx → EReal)
      = fun i => Cert.Spec.rowMax (rowsOf (m ((c : Thread nD τ).loc main_arg0))) (i 0) := by
  refine (W2_arr m ρ c 1).trans ?_
  refine (RPool.arr1 (V1 m ρ) c).trans ?_
  exact congrArg (fun X : S16384x1024.Idx → EReal => fun i : S16384x1.Idx => Cert.Spec.rowMax X (i 0)) (W1_v0 m ρ c)

/-- Leaving the pooling region: the row means. -/
theorem W2_v1_1 (c : Dev nD) :
    (W2 m ρ c (Proc.devRef .tc main_call0_v1_1) : S16384x1.Idx → EReal)
      = fun i => Cert.Spec.rowAvg (rowsOf (m ((c : Thread nD τ).loc main_arg0))) (i 0) := by
  refine (W2_arr m ρ c 2).trans ?_
  refine (RPool.arr2 (V1 m ρ) c).trans ?_
  exact congrArg (fun X : S16384x1024.Idx → EReal => fun i : S16384x1.Idx => Cert.Spec.rowAvg X (i 0)) (W1_v0 m ρ c)

/-- Entering the two-layer region: the stack of pooled rows, -/
theorem W3_v14 (c : Dev nD) :
    (W3 m ρ c (Proc.devRef .tc main_call0_v14) : S64x512.Idx → EReal)
      = stackOf (fun i => Cert.Spec.rowMax (rowsOf (m ((c : Thread nD τ).loc main_arg0))) (i 0))
          (fun i => Cert.Spec.rowAvg (rowsOf (m ((c : Thread nD τ).loc main_arg0))) (i 0)) :=
  (RHost.v14_eq (W2 m ρ c)).trans (congr (congrArg stackOf (W2_v1_0 m ρ c)) (W2_v1_1 m ρ c))

/-- the padded first layer, -/
theorem W3_v17 (c : Dev nD) :
    (W3 m ρ c (Proc.devRef .tc main_call0_v17) : S512x128.Idx → EReal) = w1pad (m ((c : Thread nD τ).loc main_arg1)) :=
  (RHost.v17_eq (W2 m ρ c)).trans (congrArg w1pad (W2_arg1 m ρ c))

/-- and the padded second layer. -/
theorem W3_v20 (c : Dev nD) :
    (W3 m ρ c (Proc.devRef .tc main_call0_v20) : S128x512.Idx → EReal) = w2pad (m ((c : Thread nD τ).loc main_arg2)) :=
  (RHost.v20_eq (W2 m ρ c)).trans (congrArg w2pad (W2_arg2 m ρ c))

/-- Leaving the two-layer region: its map of the three arrays it found. -/
theorem W4_v21 (c : Dev nD) :
    (W4 m ρ c (Proc.devRef .tc main_call0_v21) : S32x512.Idx → EReal)
      = fun i => Cert.Spec.mlpAt
          (stackOf (fun i => Cert.Spec.rowMax (rowsOf (m ((c : Thread nD τ).loc main_arg0))) (i 0))
            (fun i => Cert.Spec.rowAvg (rowsOf (m ((c : Thread nD τ).loc main_arg0))) (i 0)))
          (w1pad (m ((c : Thread nD τ).loc main_arg1))) (w2pad (m ((c : Thread nD τ).loc main_arg2))) (i 0) (i 1) := by
  refine (W4_arr m ρ c 3).trans ?_
  refine (RMlp.arr3 (V3 m ρ) c).trans ?_
  exact congr (congr (congrArg (fun (a : S64x512.Idx → EReal) (b : S512x128.Idx → EReal) (d : S128x512.Idx → EReal) =>
      fun i : S32x512.Idx => Cert.Spec.mlpAt a b d (i 0) (i 1)) (W3_v14 m ρ c)) (W3_v17 m ρ c)) (W3_v20 m ρ c)

/-- The result buffer at the end. -/
theorem W5_v0 (c : Dev nD) :
    (W5 m ρ c (Proc.devRef .tc main_v0) : S32x512x1x1.Idx → EReal)
      = outOf (fun i => Cert.Spec.mlpAt
          (stackOf (fun i => Cert.Spec.rowMax (rowsOf (m ((c : Thread nD τ).loc main_arg0))) (i 0))
            (fun i => Cert.Spec.rowAvg (rowsOf (m ((c : Thread nD τ).loc main_arg0))) (i 0)))
          (w1pad (m ((c : Thread nD τ).loc main_arg1))) (w2pad (m ((c : Thread nD τ).loc main_arg2))) (i 0) (i 1)) :=
  (RHost.out_eq (W4 m ρ c)).trans (congrArg outOf (W4_v21 m ρ c))

/-- The result buffer at the end is the second form of the attention of the argument arrays. -/
theorem value (c : Dev nD) :
    (W5 m ρ c (Proc.devRef .tc main_v0) : S32x512x1x1.Idx → EReal)
      = Cert.Spec.refOut (m ((c : Thread nD τ).loc main_arg0)) (m ((c : Thread nD τ).loc main_arg1)) (m ((c : Thread nD τ).loc main_arg2)) := by
  refine (W5_v0 m ρ c).trans ?_
  funext i
  obtain ⟨b, k, u, v, rfl⟩ : ∃ (b : Fin 32) (k : Fin 512) (u v : Fin 1), i = ix4 b k u v := ⟨i 0, i 1, i 2, i 3, eq_ix4 i⟩
  rw [outOf_apply]
  exact mlp_stack _ _ _ b k

/-- Every weakly fair run of the second program ends with the result at `Spec.refOut` of the arguments, the arguments unchanged. -/
theorem run : θ_run (defs (F := Ideal)) (onTc (τ := τ) (main (F := Ideal))) ⟨m, fun _ => 0, ρ⟩ (fun r => ∀ c : Dev nD,
      r.2.mem ((c.tc : Thread nD τ).loc main_v0)
          = Cert.Spec.refOut (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (value m ρ c), (h c).2⟩) (RRun.run_named m ρ)

end Cert.ReferenceIdeal.RValue

end
-- ==== Proof.Bridge.lean ====
/-
  The two forms of the channel-attention map are the same function.

  Fix a batch `b` and a channel `c`, and write `A j` and `B j` for hidden unit `j` of the pooled maxima and of the
  pooled means. Both are of the form `max _ 0`, so `0 ≤ A j` and `0 ≤ B j`.

  1. A sum over `Fin 128` whose terms vanish from index 32 on is the sum of its first 32 terms. The padded second layer
     is zero from row 32 on, and `a * 0 = 0` for every extended real `a` (also for `a = ±∞`), so each of the two sums
     over 128 padded hidden units is a sum over the 32 true ones. No finiteness of any value is used.
  2. Below index 32 the padded layers are the true ones: the padded hidden unit is the true hidden unit and the padded
     second-layer entry is the true entry.
  3. Over the extended reals `(a + b) * w = a * w + b * w` holds when `0 ≤ a` and `0 ≤ b` (it can fail otherwise, e.g.
     `a = ∞, b = -1`); applied termwise with `a = A j`, `b = B j` this splits the one sum of the first form into the
     two sums of the second.

  The logistic function is then applied to equal arguments.
-/
import proofs.«103996_g2000006314751908_pallasbulk_691_21_alg».proof.Proof.Spec

noncomputable section
namespace Cert.Spec
open Idealize.ShloMosaic Idealize.ShloMosaic.ValueIdx

/-- A sum of 128 extended reals whose terms vanish from index 32 on is the sum of the first 32 terms. -/
theorem sum_fin128_eq_sum_fin32 (f : Fin 128 → EReal) (hf : ∀ j : Fin 128, 32 ≤ j.val → f j = 0) :
    ∑ j : Fin 128, f j = ∑ j : Fin 32, f ⟨j.val, by omega⟩ := by
  have h := Fin.sum_trunc (M := EReal) (a := 32) (b := 96) f
    (fun j => hf _ (by simp [Fin.natAdd]))
  exact h

/-- Below index 32 the padded second layer is the true second layer. -/
theorem w2p_of_lt (w2 : SW2.Idx → EReal) (j : Fin 32) (c : Fin 512) :
    w2p w2 ⟨j.val, by omega⟩ c = w2 (ix4 c j 0 0) := by
  simp [w2p]

/-- From index 32 on the padded second layer is zero. -/
theorem w2p_of_ge (w2 : SW2.Idx → EReal) (j : Fin 128) (c : Fin 512) (h : 32 ≤ j.val) :
    w2p w2 j c = 0 := by
  unfold w2p
  exact dif_neg (by omega)

/-- Below index 32 the padded first layer is the true first layer. -/
theorem w1p_of_lt (w1 : SW1.Idx → EReal) (c : Fin 512) (j : Fin 32) :
    w1p w1 c ⟨j.val, by omega⟩ = w1 (ix4 j c 0 0) := by
  simp [w1p]

/-- Below index 32 the padded hidden unit is the true hidden unit. -/
theorem hidP_of_lt (p : Fin 512 → EReal) (w1 : SW1.Idx → EReal) (j : Fin 32) :
    hidP p w1 ⟨j.val, by omega⟩ = hid p w1 j := by
  unfold hidP hid
  simp only [w1p_of_lt]

/-- A hidden unit is a maximum with zero, hence nonnegative. -/
theorem hid_nonneg (p : Fin 512 → EReal) (w1 : SW1.Idx → EReal) (j : Fin 32) : 0 ≤ hid p w1 j :=
  le_max_right _ _

/-- A sum over the 128 padded hidden units against the padded second layer is the sum over the 32 true hidden units
    against the true second layer. -/
theorem sum_hidP_w2p (p : Fin 512 → EReal) (w1 : SW1.Idx → EReal) (w2 : SW2.Idx → EReal) (c : Fin 512) :
    ∑ j : Fin 128, hidP p w1 j * w2p w2 j c = ∑ j : Fin 32, hid p w1 j * w2 (ix4 c j 0 0) := by
  rw [sum_fin128_eq_sum_fin32 (fun j => hidP p w1 j * w2p w2 j c)
    (fun j hj => by rw [w2p_of_ge w2 j c hj, mul_zero])]
  simp only [hidP_of_lt, w2p_of_lt]

theorem kOutAt_eq_rOutAt (x : SX.Idx → EReal) (w1 : SW1.Idx → EReal) (w2 : SW2.Idx → EReal) (b : Fin 32) (c : Fin 512) :
    kOutAt x w1 w2 b c = rOutAt x w1 w2 b c := by
  unfold kOutAt rOutAt
  rw [sum_hidP_w2p, sum_hidP_w2p, ← Finset.sum_add_distrib]
  refine congrArg Ideal.logistic (Finset.sum_congr rfl fun j _ => ?_)
  exact EReal.right_distrib_of_nonneg (hid_nonneg _ w1 j) (hid_nonneg _ w1 j)

theorem kernelOut_eq_refOut (x : SX.Idx → EReal) (w1 : SW1.Idx → EReal) (w2 : SW2.Idx → EReal) :
    kernelOut x w1 w2 = refOut x w1 w2 :=
  funext fun i => kOutAt_eq_rOutAt x w1 w2 (i 0) (i 1)

end Cert.Spec
end
-- ==== Proof.lean ====
/-
  The certificate's claim: the fused channel-attention kernel against the two-stage reference.

  Both programs compute, for every batch `b` and channel `c`, the logistic function of a two-layer map applied to the
  pooled maximum and the pooled mean of `x[b, ·, ·, ·]` over the spatial positions. The kernel adds the two hidden vectors
  and multiplies once by the second layer (`Spec.kernelOut`); the reference stacks the two pooled vectors, pads both layers
  with zeros to 128 hidden units, multiplies each hidden vector by the second layer and adds the products (`Spec.refOut`).
  Over the extended reals the two are one function: the padded units contribute `0`, and `(a + b)·w = a·w + b·w` holds
  because hidden units are maxima with zero, hence nonnegative (Proof/Bridge.lean). No finiteness of the inputs is used.

  The three frames are the generated ones. The ideal pass rewrote nothing, so the preservation claim is trivial. The
  kernel's value is read off its generated frame run (Proof/KRun.lean), the reference's off its five segments
  (Proof/RValue.lean).
-/
import proofs.«103996_g2000006314751908_pallasbulk_691_21_alg».proof.Defs
import proofs.«103996_g2000006314751908_pallasbulk_691_21_alg».proof.Proof.Gen.Kernel
import proofs.«103996_g2000006314751908_pallasbulk_691_21_alg».proof.Proof.Gen.Kernel.Skeleton
import proofs.«103996_g2000006314751908_pallasbulk_691_21_alg».proof.Proof.Gen.Kernel.Launch
import proofs.«103996_g2000006314751908_pallasbulk_691_21_alg».proof.Proof.Gen.Kernel.Points
import proofs.«103996_g2000006314751908_pallasbulk_691_21_alg».proof.Proof.Gen.Kernel.Frame
import proofs.«103996_g2000006314751908_pallasbulk_691_21_alg».proof.Proof.Gen.KernelIdeal
import proofs.«103996_g2000006314751908_pallasbulk_691_21_alg».proof.Proof.Gen.KernelIdeal.Skeleton
import proofs.«103996_g2000006314751908_pallasbulk_691_21_alg».proof.Proof.Gen.KernelIdeal.Launch
import proofs.«103996_g2000006314751908_pallasbulk_691_21_alg».proof.Proof.Gen.KernelIdeal.Points
import proofs.«103996_g2000006314751908_pallasbulk_691_21_alg».proof.Proof.Gen.KernelIdeal.Frame
import proofs.«103996_g2000006314751908_pallasbulk_691_21_alg».proof.Proof.Gen.ReferenceIdeal
import proofs.«103996_g2000006314751908_pallasbulk_691_21_alg».proof.Proof.Gen.ReferenceIdeal.Skeleton
import proofs.«103996_g2000006314751908_pallasbulk_691_21_alg».proof.Proof.Gen.ReferenceIdeal.Launch
import proofs.«103996_g2000006314751908_pallasbulk_691_21_alg».proof.Proof.Gen.ReferenceIdeal.Points
import proofs.«103996_g2000006314751908_pallasbulk_691_21_alg».proof.Proof.Gen.ReferenceIdeal.Frame
import proofs.«103996_g2000006314751908_pallasbulk_691_21_alg».proof.Proof.Gen.Pre_finite_inputs
import proofs.«103996_g2000006314751908_pallasbulk_691_21_alg».proof.Proof.KRun
import proofs.«103996_g2000006314751908_pallasbulk_691_21_alg».proof.Proof.RValue
import proofs.«103996_g2000006314751908_pallasbulk_691_21_alg».proof.Proof.Bridge
import Idealize.ShloMosaic.Adequacy
import Idealize.ShloMosaic.Init

noncomputable section

namespace Cert.Proof

open Idealize.ShloMosaic Idealize.SL.Sem

/-- The kernel runs and leaves its arguments unchanged. -/
theorem frame_k : Cert.frame_Kernel := fun m ρ _ => Cert.Kernel.Gen.frame m ρ
/-- The idealized kernel runs and leaves its arguments unchanged. -/
theorem frame_ki : Cert.frame_KernelIdeal := fun m ρ _ => Cert.KernelIdeal.Gen.frame m ρ
/-- The idealized reference runs and leaves its arguments unchanged. -/
theorem frame_ri : Cert.frame_ReferenceIdeal := fun m ρ _ => Cert.ReferenceIdeal.Gen.frame m ρ

/-- From memories agreeing on the arguments the two idealized programs end with equal results: the kernel's is the first form
    of the attention, the reference's the second, and the two forms are one function. -/
theorem algebraic : Cert.algebraic_KernelIdeal_ReferenceIdeal := by
  intro m ρ m' ρ' _ hagree
  refine ⟨fun c => Cert.Spec.kernelOut
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.KRun.run m ρ, ?_⟩
  refine (θ_run Cert.ReferenceIdeal.defs _ _).mono (fun r h c => ⟨(h c).1.trans ?_, (h c).2⟩)
    (Cert.ReferenceIdeal.RValue.run m' ρ')
  rw [(hagree c).1, (hagree c).2.1, (hagree c).2.2]
  exact (Cert.Spec.kernelOut_eq_refOut _ _ _).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
